-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) (main_arg1 : FVec F S4096x1024 .f32) (main_arg2 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  main_v13
-- ==== Kernel.lean ====
abbrev S4096x1024 : Shape := ⟨2, ![4096, 1024]⟩
abbrev S4096x4096 : Shape := ⟨2, ![4096, 4096]⟩
abbrev S256x1024 : Shape := ⟨2, ![256, 1024]⟩
abbrev S4096x256 : Shape := ⟨2, ![4096, 256]⟩
abbrev S1x256 : Shape := ⟨2, ![1, 256]⟩
abbrev S512x1024 : Shape := ⟨2, ![512, 1024]⟩
abbrev S512x256 : Shape := ⟨2, ![512, 256]⟩
abbrev S256 : Shape := ⟨1, ![256]⟩

abbrev nBuf : Space → Nat
  | .hbm => 6
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .bf16⟩
  | .hbm, ⟨4, _⟩ => ⟨S4096x1024, .f32⟩
  | .hbm, ⟨5, _⟩ => ⟨S4096x4096, .f32⟩
  | .local _ .vmem, ⟨0, _⟩ => ⟨S256x1024, .f32⟩
  | .local _ .vmem, ⟨1, _⟩ => ⟨S256x1024, .f32⟩
  | .local _ .vmem, ⟨2, _⟩ => ⟨S4096x1024, .f32⟩
  | .local _ .vmem, ⟨3, _⟩ => ⟨S4096x1024, .bf16⟩
  | .local _ .vmem, ⟨4, _⟩ => ⟨S256x1024, .f32⟩
  | .local _ .vmem, ⟨5, _⟩ => ⟨S256x1024, .f32⟩
  | .local _ .vmem, ⟨6, _⟩ => ⟨S4096x256, .f32⟩
  | .local _ .vmem, ⟨7, _⟩ => ⟨S4096x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  let c512_i32 : BitVec 32 := 512#32
  let v2 : BitVec 32 := Scalar.muli c0_i32 c512_i32
  v2
def k0_off1 (c0_i32 : BitVec 32) : Fin 2 → Nat :=
  let c512_i32 : BitVec 32 := 512#32
  let v2 : BitVec 32 := Scalar.muli c0_i32 c512_i32
  let v3 : BitVec 32 := v2
  let v4 : Index := Scalar.indexCast v3
  let c0_1 : Index := 0#32
  ![v4.toNat, 0]
def k0_off2 (c0_i32 : BitVec 32) : Fin 2 → Nat :=
  let c512_i32 : BitVec 32 := 512#32
  let v2 : BitVec 32 := Scalar.muli c0_i32 c512_i32
  let v3 : BitVec 32 := v2
  let v7 : Index := Scalar.indexCast v3
  let c0_3 : Index := 0#32
  ![v7.toNat, 0]
def k0_mult2 : BitVec 32 :=
  let c1_i32 : BitVec 32 := 1#32
  let c512_i32_5 : BitVec 32 := 512#32
  let v12 : BitVec 32 := Scalar.muli c1_i32 c512_i32_5
  v12
def k0_mult3 : BitVec 32 :=
  let c2_i32 : BitVec 32 := 2#32
  let c512_i32_10 : BitVec 32 := 512#32
  let v22 : BitVec 32 := Scalar.muli c2_i32 c512_i32_10
  v22
def k0_mult4 : BitVec 32 :=
  let c3_i32 : BitVec 32 := 3#32
  let c512_i32_15 : BitVec 32 := 512#32
  let v32 : BitVec 32 := Scalar.muli c3_i32 c512_i32_15
  v32
def k0_mult5 : BitVec 32 :=
  let c4_i32 : BitVec 32 := 4#32
  let c512_i32_20 : BitVec 32 := 512#32
  let v42 : BitVec 32 := Scalar.muli c4_i32 c512_i32_20
  v42
def k0_mult6 : BitVec 32 :=
  let c5_i32 : BitVec 32 := 5#32
  let c512_i32_25 : BitVec 32 := 512#32
  let v52 : BitVec 32 := Scalar.muli c5_i32 c512_i32_25
  v52
def k0_mult7 : BitVec 32 :=
  let c6_i32 : BitVec 32 := 6#32
  let c512_i32_30 : BitVec 32 := 512#32
  let v62 : BitVec 32 := Scalar.muli c6_i32 c512_i32_30
  v62
def k0_mult8 : BitVec 32 :=
  let c7_i32 : BitVec 32 := 7#32
  let c512_i32_35 : BitVec 32 := 512#32
  let v72 : BitVec 32 := Scalar.muli c7_i32 c512_i32_35
  v72
def k0_mult9 : BitVec 32 :=
  let c0_i32_41 : BitVec 32 := 0#32
  let c512_i32_42 : BitVec 32 := 512#32
  let v83 : BitVec 32 := Scalar.muli c0_i32_41 c512_i32_42
  v83
def k0_mult10 : BitVec 32 :=
  let c1_i32_46 : BitVec 32 := 1#32
  let c512_i32_47 : BitVec 32 := 512#32
  let v96 : BitVec 32 := Scalar.muli c1_i32_46 c512_i32_47
  v96
def k0_mult11 : BitVec 32 :=
  let c2_i32_51 : BitVec 32 := 2#32
  let c512_i32_52 : BitVec 32 := 512#32
  let v109 : BitVec 32 := Scalar.muli c2_i32_51 c512_i32_52
  v109
def k0_mult12 : BitVec 32 :=
  let c3_i32_56 : BitVec 32 := 3#32
  let c512_i32_57 : BitVec 32 := 512#32
  let v122 : BitVec 32 := Scalar.muli c3_i32_56 c512_i32_57
  v122
def k0_mult13 : BitVec 32 :=
  let c4_i32_61 : BitVec 32 := 4#32
  let c512_i32_62 : BitVec 32 := 512#32
  let v135 : BitVec 32 := Scalar.muli c4_i32_61 c512_i32_62
  v135
def k0_mult14 : BitVec 32 :=
  let c5_i32_66 : BitVec 32 := 5#32
  let c512_i32_67 : BitVec 32 := 512#32
  let v148 : BitVec 32 := Scalar.muli c5_i32_66 c512_i32_67
  v148
def k0_mult15 : BitVec 32 :=
  let c6_i32_71 : BitVec 32 := 6#32
  let c512_i32_72 : BitVec 32 := 512#32
  let v161 : BitVec 32 := Scalar.muli c6_i32_71 c512_i32_72
  v161
def k0_mult16 : BitVec 32 :=
  let c7_i32_76 : BitVec 32 := 7#32
  let c512_i32_77 : BitVec 32 := 512#32
  let v174 : BitVec 32 := Scalar.muli c7_i32_76 c512_i32_77
  v174
def k0_mult17 : BitVec 32 :=
  let c0_i32_84 : BitVec 32 := 0#32
  let c512_i32_85 : BitVec 32 := 512#32
  let v190 : BitVec 32 := Scalar.muli c0_i32_84 c512_i32_85
  v190
def k0_mult18 : BitVec 32 :=
  let c1_i32_90 : BitVec 32 := 1#32
  let c512_i32_91 : BitVec 32 := 512#32
  let v205 : BitVec 32 := Scalar.muli c1_i32_90 c512_i32_91
  v205
def k0_mult19 : BitVec 32 :=
  let c2_i32_96 : BitVec 32 := 2#32
  let c512_i32_97 : BitVec 32 := 512#32
  let v220 : BitVec 32 := Scalar.muli c2_i32_96 c512_i32_97
  v220
def k0_mult20 : BitVec 32 :=
  let c3_i32_102 : BitVec 32 := 3#32
  let c512_i32_103 : BitVec 32 := 512#32
  let v235 : BitVec 32 := Scalar.muli c3_i32_102 c512_i32_103
  v235
def k0_mult21 : BitVec 32 :=
  let c4_i32_108 : BitVec 32 := 4#32
  let c512_i32_109 : BitVec 32 := 512#32
  let v250 : BitVec 32 := Scalar.muli c4_i32_108 c512_i32_109
  v250
def k0_mult22 : BitVec 32 :=
  let c5_i32_114 : BitVec 32 := 5#32
  let c512_i32_115 : BitVec 32 := 512#32
  let v265 : BitVec 32 := Scalar.muli c5_i32_114 c512_i32_115
  v265
def k0_mult23 : BitVec 32 :=
  let c6_i32_120 : BitVec 32 := 6#32
  let c512_i32_121 : BitVec 32 := 512#32
  let v280 : BitVec 32 := Scalar.muli c6_i32_120 c512_i32_121
  v280
def k0_mult24 : BitVec 32 :=
  let c7_i32_126 : BitVec 32 := 7#32
  let c512_i32_127 : BitVec 32 := 512#32
  let v295 : BitVec 32 := Scalar.muli c7_i32_126 c512_i32_127
  v295
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  h_S512x1024 : 0 < S512x1024.numel
  h_S512x256 : 0 < S512x256.numel
  reduces_S512x256_S256 : S512x256.Reduces [0] S256
  shapeCasts_S256_S1x256 : S256.ShapeCasts S1x256
  shapeCasts_S512x256_S512x256 : S512x256.ShapeCasts S512x256
  broadcasts_S1x256_S512x256 : S1x256.Broadcasts S512x256
  shapeCasts_S512x1024_S512x1024 : S512x1024.ShapeCasts S512x1024
  dot_S512x1024_S256x1024_S512x256_1_1_0_0_n_n_wf : DotDims.WF S512x1024 S256x1024 S512x256 [1] [1] [0] [0] [] []
  dot_S512x256_S512x1024_S256x1024_0_0_1_1_n_n_wf : DotDims.WF S512x256 S512x1024 S256x1024 [0] [0] [1] [1] [] []
  hrank0 : 0 < grid0.rank
  k0_mult1_dvd : 512 ∣ k0_mult1.toNat
  k0_off1_inb : ∀ (r : Fin 8), ∀ a, (k0_off1 (BitVec.ofNat 32 r.val)) a + S512x1024.size a ≤ S4096x1024.size a
  k0_off2_inb : ∀ (r : Fin 8), ∀ a, (k0_off2 (BitVec.ofNat 32 r.val)) a + S512x256.size a ≤ S4096x256.size a
  k0_mult2_dvd : 512 ∣ k0_mult2.toNat
  k0_mult3_dvd : 512 ∣ k0_mult3.toNat
  k0_mult4_dvd : 512 ∣ k0_mult4.toNat
  k0_mult5_dvd : 512 ∣ k0_mult5.toNat
  k0_mult6_dvd : 512 ∣ k0_mult6.toNat
  k0_mult7_dvd : 512 ∣ k0_mult7.toNat
  k0_mult8_dvd : 512 ∣ k0_mult8.toNat
  k0_mult9_dvd : 512 ∣ k0_mult9.toNat
  k0_mult10_dvd : 512 ∣ k0_mult10.toNat
  k0_mult11_dvd : 512 ∣ k0_mult11.toNat
  k0_mult12_dvd : 512 ∣ k0_mult12.toNat
  k0_mult13_dvd : 512 ∣ k0_mult13.toNat
  k0_mult14_dvd : 512 ∣ k0_mult14.toNat
  k0_mult15_dvd : 512 ∣ k0_mult15.toNat
  k0_mult16_dvd : 512 ∣ k0_mult16.toNat
  k0_mult17_dvd : 512 ∣ k0_mult17.toNat
  k0_mult18_dvd : 512 ∣ k0_mult18.toNat
  k0_mult19_dvd : 512 ∣ k0_mult19.toNat
  k0_mult20_dvd : 512 ∣ k0_mult20.toNat
  k0_mult21_dvd : 512 ∣ k0_mult21.toNat
  k0_mult22_dvd : 512 ∣ k0_mult22.toNat
  k0_mult23_dvd : 512 ∣ k0_mult23.toNat
  k0_mult24_dvd : 512 ∣ k0_mult24.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .f32 = 32 ∨ (Rect.block (s := S4096x1024) S4096x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x1024.size a ≤ S4096x1024.size a
  hwx0_2 : ∀ i : grid0.Coords, EltTy.bits .bf16 = 32 ∨ (Rect.block (s := S4096x1024) S4096x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S4096x1024.size a
  hwx0_3 : ∀ i : grid0.Coords, EltTy.bits .f32 = 32 ∨ (Rect.block (s := S4096x1024) S256x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x256.size a ≤ S4096x4096.size a
  hwx0_4 : ∀ i : grid0.Coords, EltTy.bits .f32 = 32 ∨ (Rect.block (s := S4096x4096) S4096x256.size (cc0_transform_4 i) (hinb0_4 i)).WholeWords (EltTy.packing .f32)

variable [Facts₀]

def dot_S512x1024_S256x1024_S512x256_1_1_0_0_n_n : DotDims S512x1024 S256x1024 S512x256 where
  lhsContracting := [1]
  rhsContracting := [1]
  lhsNonContracting := [0]
  rhsNonContracting := [0]
  lhsBatch := []
  rhsBatch := []
  wf := dot_S512x1024_S256x1024_S512x256_1_1_0_0_n_n_wf
def dot_S512x256_S512x1024_S256x1024_0_0_1_1_n_n : DotDims S512x256 S512x1024 S256x1024 where
  lhsContracting := [0]
  rhsContracting := [0]
  lhsNonContracting := [1]
  rhsNonContracting := [1]
  lhsBatch := []
  rhsBatch := []
  wf := dot_S512x256_S512x1024_S256x1024_0_0_1_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S256x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S4096x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4096x4096 : Shape := ⟨2, ![4096, 4096]⟩
abbrev S_ : Shape := ⟨0, ![]⟩
abbrev S4096 : Shape := ⟨1, ![4096]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S1x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096, .f32⟩
  | .hbm, ⟨15, _⟩ => ⟨S1x4096, .f32⟩
  | .hbm, ⟨16, _⟩ => ⟨S4096x4096, .f32⟩
  | .hbm, ⟨17, _⟩ => ⟨S4096x4096, .f32⟩
  | .hbm, ⟨18, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  reducesTo_S4096x4096_S4096_d0 : S4096x4096.ReducesTo [0] S4096
  h_S_ : 0 < S_.numel
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x1024_S4096x1024_S4096x4096_1_1_0_0_n_n_wf : DotDims.WF S4096x1024 S4096x1024 S4096x4096 [1] [1] [0] [0] [] []
  dot_S4096x4096_S4096x1024_S4096x1024_0_0_1_1_n_n_wf : DotDims.WF S4096x4096 S4096x1024 S4096x1024 [0] [0] [1] [1] [] []

variable [Facts₀]

def dot_S4096x1024_S4096x1024_S4096x4096_1_1_0_0_n_n : DotDims S4096x1024 S4096x1024 S4096x4096 where
  lhsContracting := [1]
  rhsContracting := [1]
  lhsNonContracting := [0]
  rhsNonContracting := [0]
  lhsBatch := []
  rhsBatch := []
  wf := dot_S4096x1024_S4096x1024_S4096x4096_1_1_0_0_n_n_wf
def dot_S4096x4096_S4096x1024_S4096x1024_0_0_1_1_n_n : DotDims S4096x4096 S4096x1024 S4096x1024 where
  lhsContracting := [0]
  rhsContracting := [0]
  lhsNonContracting := [1]
  rhsNonContracting := [1]
  lhsBatch := []
  rhsBatch := []
  wf := dot_S4096x4096_S4096x1024_S4096x1024_0_0_1_1_n_n_wf

class Facts : Prop extends Facts₀ where

variable [Facts]
-- ==== Proof.Spec.lean ====
/-
  The mathematics both programs compute, as functions of the three argument arrays over the extended reals:
  for keys K, queries Q, values V (each 4096 × 1024),
    score k q   = ∑ d, K[k,d] · Q[q,d]
    colMax q    = the largest score of column q (over the 4096 keys)
    ex k q      = exp (score k q − colMax q)
    colSum q    = ∑ k, ex k q
    attn[k,q]   = ex k q / colSum q                       (a softmax down each column)
    out[q,e]    = ∑ k, attn[k,q] · V[k,e].
  One program takes the column maximum and the column sum in eight runs of 512 keys and multiplies by the
  reciprocal 1 / colSum; the other takes them in one sweep and divides. The laws that join them are here:
  a maximum and a sum over 4096 keys regroup into eight runs of 512 (the extended reals' max and + are
  commutative and associative, at the infinities too), and e · (1 / l) = e / l whenever l ≠ 0 — which
  holds when every input is a real number, since then every score and every column maximum is real, every
  ex is a positive real, and the column sum is a positive real.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- Key number `512·j + r`: row `r` of the `j`-th run of 512 keys. -/
def ck (j : Fin 8) (r : Fin 512) : Fin 4096 := ⟨j.val * 512 + r.val, by omega⟩

/-! ## One column: its maximum, its exponentials, their sum, the softmax -/

/-- The largest of a column's 4096 scores. -/
def colMaxOf (s : Fin 4096 → EReal) : EReal := Finset.univ.sup s
/-- A score's exponential after the column's maximum is taken off. -/
def exOf (s : Fin 4096 → EReal) (k : Fin 4096) : EReal := Ideal.exp (s k - colMaxOf s)
/-- The sum of a column's exponentials. -/
def colSumOf (s : Fin 4096 → EReal) : EReal := ∑ k : Fin 4096, exOf s k
/-- The softmax weight of key `k` in the column. -/
def attnOf (s : Fin 4096 → EReal) (k : Fin 4096) : EReal := Ideal.div (exOf s k) (colSumOf s)

/-! ## Regrouping into eight runs of 512 -/

/-- A sum over 4096 keys is the sum over the eight runs of the sums over each run's 512 keys. -/
theorem sum_chunks {M : Type*} [AddCommMonoid M] (f : Fin 4096 → M) :
    ∑ k : Fin 4096, f k = ∑ j : Fin 8, ∑ r : Fin 512, f (ck j r) := by
  rw [← Fintype.sum_prod_type' (fun (j : Fin 8) (r : Fin 512) => f (ck j r))]
  refine (Fintype.sum_equiv (finProdFinEquiv (m := 8) (n := 512)) _ _ fun p => ?_).symm
  refine congrArg f (Fin.ext ?_)
  show p.1.val * 512 + p.2.val = p.2.val + 512 * p.1.val
  omega

/-- A fold of `max` from `b` is `b` joined with the supremum. -/
theorem fold_max_eq_sup {ι : Type*} [DecidableEq ι] (s : Finset ι) (b : EReal) (f : ι → EReal) :
    s.fold max b f = b ⊔ s.sup f := by
  induction s using Finset.induction_on with
  | empty => simp
  | insert a s ha ih =>
    rw [Finset.fold_insert ha, ih, Finset.sup_insert]
    show f a ⊔ (b ⊔ s.sup f) = b ⊔ (f a ⊔ s.sup f)
    exact sup_left_comm _ _ _

/-- The supremum over 4096 keys is the join of the eight runs' suprema. -/
theorem sup_chunks (f : Fin 4096 → EReal) :
    Finset.univ.sup f = Finset.univ.sup fun j : Fin 8 => Finset.univ.sup fun r : Fin 512 => f (ck j r) := by
  apply le_antisymm
  · refine Finset.sup_le fun k _ => ?_
    have hk : k = ck ⟨k.val / 512, by omega⟩ ⟨k.val % 512, Nat.mod_lt _ (by norm_num)⟩ :=
      Fin.ext (by show k.val = k.val / 512 * 512 + k.val % 512; omega)
    rw [hk]
    exact le_trans (Finset.le_sup (f := fun r : Fin 512 => f (ck _ r)) (Finset.mem_univ _))
      (Finset.le_sup (f := fun j : Fin 8 => Finset.univ.sup fun r : Fin 512 => f (ck j r)) (Finset.mem_univ _))
  · exact Finset.sup_le fun j _ => Finset.sup_le fun r _ => Finset.le_sup (Finset.mem_univ _)

/-! ## The reciprocal form of the division -/

/-- `e · (1 / l) = e / l` on the extended reals whenever `l ≠ 0` (at `l = 0` the two differ at `e = 0`). -/
theorem mul_div_one_eq_div (e l : EReal) (hl : l ≠ 0) : e * Ideal.div 1 l = Ideal.div e l := by
  unfold Ideal.div
  rw [if_neg hl, if_neg hl, one_mul]

/-! ## Real inputs: the column sum is not zero -/

/-- A finite sum of real numbers, taken in the extended reals, is the real sum. -/
theorem coe_sum {ι : Type*} [DecidableEq ι] (s : Finset ι) (f : ι → ℝ) :
    ∑ i ∈ s, ((f i : ℝ) : EReal) = ((∑ i ∈ s, f i : ℝ) : EReal) := by
  induction s using Finset.induction_on with
  | empty => simp
  | insert a s ha ih => rw [Finset.sum_insert ha, Finset.sum_insert ha, ih, EReal.coe_add]

/-- For a column of real scores the sum of its exponentials is not zero: the maximum is a real number, each
    exponential a positive real, and so is their sum. -/
theorem colSumOf_ne_zero (s : Fin 4096 → EReal) (hs : ∀ k, ∃ r : ℝ, s k = (r : EReal)) : colSumOf s ≠ 0 := by
  choose r hr using hs
  have hsr : s = fun k => ((r k : ℝ) : EReal) := funext hr
  have hlt : colMaxOf s < ⊤ := by
    unfold colMaxOf
    rw [Finset.sup_lt_iff (bot_lt_top)]
    intro k _; rw [hr k]; exact EReal.coe_lt_top _
  have hgt : ⊥ < colMaxOf s := by
    refine lt_of_lt_of_le ?_ (Finset.le_sup (f := s) (Finset.mem_univ (0 : Fin 4096)))
    rw [hr 0]; exact EReal.bot_lt_coe _
  obtain ⟨m, hm⟩ : ∃ m : ℝ, colMaxOf s = (m : EReal) :=
    ⟨(colMaxOf s).toReal, (EReal.coe_toReal hlt.ne hgt.ne').symm⟩
  have hex : ∀ k, exOf s k = ((Real.exp (r k - m) : ℝ) : EReal) := by
    intro k
    unfold exOf
    rw [hm, hr k, ← EReal.coe_sub]
    rfl
  unfold colSumOf
  rw [Finset.sum_congr rfl fun k _ => hex k, coe_sum]
  intro h0
  have hpos : (0 : ℝ) < ∑ k : Fin 4096, Real.exp (r k - m) :=
    Finset.sum_pos (fun k _ => Real.exp_pos _) ⟨0, Finset.mem_univ _⟩
  have : (∑ k : Fin 4096, Real.exp (r k - m) : ℝ) = 0 := by exact_mod_cast h0
  linarith

/-! ## The two results, over the argument arrays -/

/-- The arrays' shapes. -/
abbrev SQ : Shape := ⟨2, ![4096, 1024]⟩
abbrev SA : Shape := ⟨2, ![4096, 4096]⟩

/-- The score of key `k` against query `q`. -/
def score (Q K : SQ.Idx → EReal) (k q : Fin 4096) : EReal := ∑ d : Fin 1024, K (ix2 k d) * Q (ix2 q d)

/-- The attention weights: down each column `q`, the softmax of the scores. -/
def attn (Q K : SQ.Idx → EReal) : SA.Idx → EReal :=
  fun j => attnOf (fun k => score Q K k (j 1)) (j 0)

/-- The weighted values: row `q` is the weights of column `q` against the values. -/
def weighted (Q K V : SQ.Idx → EReal) : SQ.Idx → EReal :=
  fun j => ∑ k : Fin 4096, attn Q K (ix2 k (j 0)) * V (ix2 k (j 1))

/-- With real entries a score is a real number. -/
theorem score_real (Q K : SQ.Idx → EReal) (hQ : ∀ i, ∃ r : ℝ, Q i = (r : EReal)) (hK : ∀ i, ∃ r : ℝ, K i = (r : EReal))
    (k q : Fin 4096) : ∃ r : ℝ, score Q K k q = (r : EReal) := by
  choose a ha using hQ
  choose b hb using hK
  refine ⟨∑ d : Fin 1024, b (ix2 k d) * a (ix2 q d), ?_⟩
  unfold score
  rw [← coe_sum]
  exact Finset.sum_congr rfl fun d _ => by rw [ha, hb, EReal.coe_mul]

end Cert.Attn

end
-- ==== Proof.Chunks.lean ====
/-
  The eight runs written out. A column maximum taken as −∞ joined in turn with each of the eight runs' maxima, and a
  column sum taken as zero plus in turn each of the eight runs' sums, are the maximum and the sum over all 4096 keys.
-/
import proofs.«168421_j22316650070307_2_alg».proof.Proof.Spec

noncomputable section

namespace Cert.Attn

/-- A supremum over eight indices, written out from −∞. -/
theorem sup_fin8 (g : Fin 8 → EReal) :
    Finset.univ.sup g = ⊥ ⊔ g 0 ⊔ g 1 ⊔ g 2 ⊔ g 3 ⊔ g 4 ⊔ g 5 ⊔ g 6 ⊔ g 7 := by
  apply le_antisymm
  · refine Finset.sup_le fun j _ => ?_
    fin_cases j <;> simp
  · repeat' apply sup_le
    all_goals first | exact bot_le | exact Finset.le_sup (f := g) (Finset.mem_univ _)

/-- The largest of the 512 values of `f` in run `j`. -/
def runSup (f : Fin 4096 → EReal) (j : Fin 8) : EReal := Finset.univ.sup fun r : Fin 512 => f (ck j r)
/-- The sum of the 512 values of `f` in run `j`. -/
def runSum (f : Fin 4096 → EReal) (j : Fin 8) : EReal := ∑ r : Fin 512, f (ck j r)

/-- −∞ joined in turn with the eight runs' maxima is the maximum over all keys. -/
theorem sup_chunks8 (f : Fin 4096 → EReal) :
    ⊥ ⊔ runSup f 0 ⊔ runSup f 1 ⊔ runSup f 2 ⊔ runSup f 3 ⊔ runSup f 4 ⊔ runSup f 5 ⊔ runSup f 6 ⊔ runSup f 7
      = colMaxOf f := by
  unfold colMaxOf
  rw [sup_chunks f, sup_fin8]
  rfl

/-- Zero plus in turn the eight runs' sums is the sum over all keys. -/
theorem sum_chunks8 (f : Fin 4096 → EReal) :
    0 + runSum f 0 + runSum f 1 + runSum f 2 + runSum f 3 + runSum f 4 + runSum f 5 + runSum f 6 + runSum f 7
      = ∑ k : Fin 4096, f k := by
  rw [sum_chunks f, Fin.sum_univ_eight, zero_add]
  rfl

end Cert.Attn

end
-- ==== Proof.Steps.lean ====
/-
  The arithmetic of the kernel's body, one run of 512 keys at a time, read at an index over the extended reals.
  The body handles the 4096 keys in eight runs of 512, three times over: first the scores of a run against the
  block's 256 queries (a matrix product into zero) with a running column maximum; then the exponentials of the
  scores less the final maximum, with a running column sum; then the exponentials times the reciprocal of the
  final sum, each run's weights multiplied into the values and added to a running product. Each of those six
  steps is one function here, read at an index, and every printed payload is a composition of them.
-/
import proofs.«168421_j22316650070307_2_alg».proof.Proof.Gen.KernelIdeal.Value
import proofs.«168421_j22316650070307_2_alg».proof.Proof.Spec
import Idealize.ShloMosaic.Lib.Pipeline.Value
import Idealize.ShloMosaic.Lib.Pipeline.CanonAppend
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx

namespace Cert.KernelIdeal.Body

open Cert.KernelIdeal Cert.KernelIdeal.Gen Cert.Attn

/-- The two matrix products' dimension records: keys × queriesᵀ (both contracted on their second axis), and
    weightsᵀ × values (both contracted on their first). -/
abbrev DA : DotDims S512x1024 S256x1024 S512x256 := dot_S512x1024_S256x1024_S512x256_1_1_0_0_n_n
abbrev DB : DotDims S512x256 S512x1024 S256x1024 := dot_S512x256_S512x1024_S256x1024_0_0_1_1_n_n

/-! ## The six steps -/

/-- The scores of a run of 512 keys against the block's 256 queries. -/
def sStep (v0 : FVec Ideal S256x1024 .f32) (kc : FVec Ideal S512x1024 .f32) : FVec Ideal S512x256 .f32 :=
  matmul DA (some .fp32) kc v0 (constant (F := Ideal) S512x256 .f32 0x00000000#32)

/-- The running column maximum joined with a run's column maxima. -/
def mStep (m : FVec Ideal S1x256 .f32) (s : FVec Ideal S512x256 .f32) : FVec Ideal S1x256 .f32 :=
  maximumf m (shapeCast S1x256 (multiReduction .maximumf [0] S256 s 0xFF800000#32 Facts₀.reduces_S512x256_S256 (.inl rfl) rfl) Facts₀.shapeCasts_S256_S1x256)

/-- A run's exponentials: each score less its column's maximum, exponentiated. -/
def eStep (m : FVec Ideal S1x256 .f32) (v : FVec Ideal S512x256 .f32) : FVec Ideal S512x256 .f32 :=
  exp (subf (shapeCast S512x256 v Facts₀.shapeCasts_S512x256_S512x256) (broadcastTo S512x256 m Facts₀.broadcasts_S1x256_S512x256))

/-- The running column sum plus a run's column sums. -/
def lStep (l : FVec Ideal S1x256 .f32) (e : FVec Ideal S512x256 .f32) : FVec Ideal S1x256 .f32 :=
  addf l (shapeCast S1x256 (multiReduction .add [0] S256 e 0x00000000#32 Facts₀.reduces_S512x256_S256 (.inl rfl) rfl) Facts₀.shapeCasts_S256_S1x256)

/-- A run's weights: each exponential times its column's reciprocal sum. -/
def pStep (inv : FVec Ideal S1x256 .f32) (v : FVec Ideal S512x256 .f32) : FVec Ideal S512x256 .f32 :=
  mulf (shapeCast S512x256 v Facts₀.shapeCasts_S512x256_S512x256) (broadcastTo S512x256 inv Facts₀.broadcasts_S1x256_S512x256)

/-- The running product plus a run's weights (transposed) times the run's values. -/
def aStep (acc : FVec Ideal S256x1024 .f32) (p : FVec Ideal S512x256 .f32) (vc : FVec Ideal S512x1024 .bf16) : FVec Ideal S256x1024 .f32 :=
  addf acc (matmul DB none (truncf .bf16 p Facts₀.bitsLt_bf16_f32) (shapeCast S512x1024 vc Facts₀.shapeCasts_S512x1024_S512x1024) (constant (F := Ideal) S256x1024 .f32 0x00000000#32))

/-! ## The constants -/

theorem ofBits_neg_inf : Ideal.ofBits .f32 0xFF800000#32 = (⊥ : EReal) := by simp [Ideal.ofBits, Ideal.ieee]
theorem ofBits_one : Ideal.ofBits .f32 0x3F800000#32 = (1 : EReal) := IdealRules.sign_bit.ideal_onePat .f32

/-! ## Each step read at an index -/

theorem lhsA_0 (i : S512x256.Idx) (q : DA.contr.Idx) : (DA.lhsIdx i q 0).val = (i 0).val := by
  unfold DotDims.lhsIdx
  rw [dif_neg (show ¬(0 : Fin S512x1024.rank) ∈ DA.lhsBatch by decide), dif_pos (show (0 : Fin S512x1024.rank) ∈ DA.lhsNonContracting by decide)]
  rfl
theorem lhsA_1 (i : S512x256.Idx) (q : DA.contr.Idx) : (DA.lhsIdx i q 1).val = (q ⟨0, by decide⟩).val :=
  DA.lhsIdx_val_of_single rfl i q
theorem rhsA_0 (i : S512x256.Idx) (q : DA.contr.Idx) : (DA.rhsIdx i q 0).val = (i 1).val := by
  unfold DotDims.rhsIdx
  rw [dif_neg (show ¬(0 : Fin S256x1024.rank) ∈ DA.rhsBatch by decide), dif_pos (show (0 : Fin S256x1024.rank) ∈ DA.rhsNonContracting by decide)]
  rfl
theorem rhsA_1 (i : S512x256.Idx) (q : DA.contr.Idx) : (DA.rhsIdx i q 1).val = (q ⟨0, by decide⟩).val :=
  DA.rhsIdx_val_of_single rfl i q

/-- A run's score of key `r` against query `c`: the sum over the 1024 features of key times query. -/
theorem sStep_apply (v0 : FVec Ideal S256x1024 .f32) (kc : FVec Ideal S512x1024 .f32) (r : Fin 512) (c : Fin 256) :
    sStep v0 kc (ix2 r c) = ∑ d : Fin 1024, kc (ix2 r d) * v0 (ix2 c d) := by
  unfold sStep
  simp only [matmul]
  rw [Ideal.matmul_constant_zero_apply, ← Equiv.sum_comp (ValueIdx.contrEquiv1 DA 1024 rfl rfl).symm]
  refine Finset.sum_congr rfl fun k _ => ?_
  have hk := ValueIdx.contrEquiv1_symm_val DA 1024 rfl rfl k
  have el : DA.lhsIdx (ix2 r c) ((ValueIdx.contrEquiv1 DA 1024 rfl rfl).symm k) = ix2 r k := funext fun a => Fin.ext (by
    match a with
    | ⟨0, _⟩ => exact lhsA_0 _ _
    | ⟨1, _⟩ => exact (lhsA_1 _ _).trans hk)
  have er : DA.rhsIdx (ix2 r c) ((ValueIdx.contrEquiv1 DA 1024 rfl rfl).symm k) = ix2 c k := funext fun a => Fin.ext (by
    match a with
    | ⟨0, _⟩ => exact rhsA_0 _ _
    | ⟨1, _⟩ => exact (rhsA_1 _ _).trans hk)
  rw [el, er]

theorem lhsB_0 (i : S256x1024.Idx) (q : DB.contr.Idx) : (DB.lhsIdx i q 0).val = (q ⟨0, by decide⟩).val :=
  DB.lhsIdx_val_of_single rfl i q
theorem lhsB_1 (i : S256x1024.Idx) (q : DB.contr.Idx) : (DB.lhsIdx i q 1).val = (i 0).val := by
  unfold DotDims.lhsIdx
  rw [dif_neg (show ¬(1 : Fin S512x256.rank) ∈ DB.lhsBatch by decide), dif_pos (show (1 : Fin S512x256.rank) ∈ DB.lhsNonContracting by decide)]
  rfl
theorem rhsB_0 (i : S256x1024.Idx) (q : DB.contr.Idx) : (DB.rhsIdx i q 0).val = (q ⟨0, by decide⟩).val :=
  DB.rhsIdx_val_of_single rfl i q
theorem rhsB_1 (i : S256x1024.Idx) (q : DB.contr.Idx) : (DB.rhsIdx i q 1).val = (i 1).val := by
  unfold DotDims.rhsIdx
  rw [dif_neg (show ¬(1 : Fin S512x1024.rank) ∈ DB.rhsBatch by decide), dif_pos (show (1 : Fin S512x1024.rank) ∈ DB.rhsNonContracting by decide)]
  rfl

/-- The reduced index `c` with row `k` put back is (k, c). -/
theorem lift_rows (h : S512x256.Reduces [0] S256) (c : Fin 256) (k : Fin (S512x256.size 0)) :
    h.lift (ix1 c) k = ix2 (⟨k.val, k.isLt⟩ : Fin 512) c := by
  funext a; apply Fin.ext
  fin_cases a <;> rfl

/-- The running maximum at column `c` joined with the largest of the run's 512 scores in that column. -/
theorem mStep_apply (m : FVec Ideal S1x256 .f32) (s : FVec Ideal S512x256 .f32) (u : Fin 1) (c : Fin 256) :
    mStep m s (ix2 u c) = m (ix2 u c) ⊔ Finset.univ.sup fun r : Fin 512 => s (ix2 r c) := by
  unfold mStep
  rw [maximumf_apply]
  refine congrArg (m (ix2 u c) ⊔ ·) ?_
  refine (shapeCast_a_1a_apply _ Facts₀.shapeCasts_S256_S1x256 u c).trans ?_
  refine (Ideal.multiReduction_maximumf_single s 0xFF800000#32 Facts₀.reduces_S512x256_S256 (.inl rfl) rfl (ix1 c)).trans ?_
  rw [fold_max_eq_sup]
  show Ideal.ofBits .f32 0xFF800000#32 ⊔ _ = _
  rw [ofBits_neg_inf, bot_sup_eq]
  exact Finset.sup_congr rfl fun k _ => congrArg s (lift_rows _ c k)

/-- A run's exponential at (r, c). -/
theorem eStep_apply (m : FVec Ideal S1x256 .f32) (v : FVec Ideal S512x256 .f32) (r : Fin 512) (c : Fin 256) :
    eStep m v (ix2 r c) = Ideal.exp (v (ix2 r c) - m (ix2 (0 : Fin 1) c)) := by
  unfold eStep
  rw [shapeCast_self]
  show Ideal.exp (v (ix2 r c) - broadcastTo S512x256 m Facts₀.broadcasts_S1x256_S512x256 (ix2 r c)) = _
  rw [broadcastTo_1b_ab_apply]

/-- The running sum at column `c` plus the sum of the run's 512 entries in that column. -/
theorem lStep_apply (l : FVec Ideal S1x256 .f32) (e : FVec Ideal S512x256 .f32) (u : Fin 1) (c : Fin 256) :
    lStep l e (ix2 u c) = l (ix2 u c) + ∑ r : Fin 512, e (ix2 r c) := by
  unfold lStep
  rw [addf_apply]
  refine congrArg (l (ix2 u c) + ·) ?_
  refine (shapeCast_a_1a_apply _ Facts₀.shapeCasts_S256_S1x256 u c).trans ?_
  refine (Ideal.multiReduction_add_single e 0x00000000#32 Facts₀.reduces_S512x256_S256 (.inl rfl) rfl (ix1 c)).trans ?_
  exact Finset.sum_congr rfl fun k _ => congrArg e (lift_rows _ c k)

/-- A run's weight at (r, c). -/
theorem pStep_apply (inv : FVec Ideal S1x256 .f32) (v : FVec Ideal S512x256 .f32) (r : Fin 512) (c : Fin 256) :
    pStep inv v (ix2 r c) = v (ix2 r c) * inv (ix2 (0 : Fin 1) c) := by
  unfold pStep
  rw [shapeCast_self, mulf_apply, broadcastTo_1b_ab_apply]

/-- The running product at (c, e) plus the sum over the run's 512 keys of weight times value. -/
theorem aStep_apply (acc : FVec Ideal S256x1024 .f32) (p : FVec Ideal S512x256 .f32) (vc : FVec Ideal S512x1024 .bf16)
    (c : Fin 256) (e : Fin 1024) :
    aStep acc p vc (ix2 c e) = acc (ix2 c e) + ∑ r : Fin 512, p (ix2 r c) * vc (ix2 r e) := by
  unfold aStep
  rw [addf_apply, shapeCast_self]
  refine congrArg (acc (ix2 c e) + ·) ?_
  simp only [matmul]
  rw [Ideal.matmul_constant_zero_apply, ← Equiv.sum_comp (ValueIdx.contrEquiv1 DB 512 rfl rfl).symm]
  refine Finset.sum_congr rfl fun k _ => ?_
  have hk := ValueIdx.contrEquiv1_symm_val DB 512 rfl rfl k
  have el : DB.lhsIdx (ix2 c e) ((ValueIdx.contrEquiv1 DB 512 rfl rfl).symm k) = ix2 k c := funext fun a => Fin.ext (by
    match a with
    | ⟨0, _⟩ => exact (lhsB_0 _ _).trans hk
    | ⟨1, _⟩ => exact lhsB_1 _ _)
  have er : DB.rhsIdx (ix2 c e) ((ValueIdx.contrEquiv1 DB 512 rfl rfl).symm k) = ix2 k e := funext fun a => Fin.ext (by
    match a with
    | ⟨0, _⟩ => exact (rhsB_0 _ _).trans hk
    | ⟨1, _⟩ => exact rhsB_1 _ _)
  rw [el, er]
  rfl

/-! ## The printed payloads are compositions of the steps -/

theorem pay1_eq (v0 : FVec Ideal S256x1024 .f32) (k : FVec Ideal S512x1024 .f32) : k0_pay1 (F := Ideal) v0 k = sStep v0 k := rfl
theorem pay2_eq (v0 : FVec Ideal S256x1024 .f32) (k : FVec Ideal S512x1024 .f32) : k0_pay2 (F := Ideal) v0 k = sStep v0 k := rfl
theorem pay3_eq (v0 : FVec Ideal S256x1024 .f32) (k : FVec Ideal S512x1024 .f32) : k0_pay3 (F := Ideal) v0 k = sStep v0 k := rfl
theorem pay5_eq (v0 : FVec Ideal S256x1024 .f32) (k : FVec Ideal S512x1024 .f32) : k0_pay5 (F := Ideal) v0 k = sStep v0 k := rfl
theorem pay6_eq (v0 : FVec Ideal S256x1024 .f32) (k : FVec Ideal S512x1024 .f32) : k0_pay6 (F := Ideal) v0 k = sStep v0 k := rfl
theorem pay7_eq (v0 : FVec Ideal S256x1024 .f32) (k : FVec Ideal S512x1024 .f32) : k0_pay7 (F := Ideal) v0 k = sStep v0 k := rfl
theorem pay9_eq (v0 : FVec Ideal S256x1024 .f32) (k : FVec Ideal S512x1024 .f32) : k0_pay9 (F := Ideal) v0 k = sStep v0 k := rfl
theorem pay10_eq (v0 : FVec Ideal S256x1024 .f32) (k : FVec Ideal S512x1024 .f32) : k0_pay10 (F := Ideal) v0 k = sStep v0 k := rfl

/-- The maximum's starting value: −∞ in every column. -/
def mInit : FVec Ideal S1x256 .f32 := broadcast S1x256 (Scalar.ofBits (F := Ideal) .f32 0xFF800000#32)
/-- The sum's starting value: zero in every column. -/
def lInit : FVec Ideal S1x256 .f32 := broadcast S1x256 (Scalar.ofBits (F := Ideal) .f32 0x00000000#32)
/-- The product's starting value: zero everywhere. -/
def aInit : FVec Ideal S256x1024 .f32 := broadcast S256x1024 (Scalar.ofBits (F := Ideal) .f32 0x00000000#32)
/-- The constant one in every column. -/
def ones : FVec Ideal S1x256 .f32 := k0_pay23 (F := Ideal)

theorem mInit_apply (i : S1x256.Idx) : mInit i = (⊥ : EReal) := ofBits_neg_inf
theorem lInit_apply (i : S1x256.Idx) : lInit i = (0 : EReal) := Ideal.ofBits_zero_f32
theorem aInit_apply (i : S256x1024.Idx) : aInit i = (0 : EReal) := Ideal.ofBits_zero_f32
theorem ones_apply (i : S1x256.Idx) : ones i = (1 : EReal) := ofBits_one

theorem pay4_eq (v0 : FVec Ideal S256x1024 .f32) (a b c : FVec Ideal S512x1024 .f32) :
    k0_pay4 (F := Ideal) v0 a b c = mStep (mStep (mStep mInit (sStep v0 a)) (sStep v0 b)) (sStep v0 c) := rfl
theorem pay8_eq (v0 : FVec Ideal S256x1024 .f32) (m : FVec Ideal S1x256 .f32) (a b c : FVec Ideal S512x1024 .f32) :
    k0_pay8 (F := Ideal) v0 m a b c = mStep (mStep (mStep m (sStep v0 a)) (sStep v0 b)) (sStep v0 c) := rfl
theorem pay11_eq (v0 : FVec Ideal S256x1024 .f32) (m : FVec Ideal S1x256 .f32) (s6 : FVec Ideal S512x256 .f32) (k : FVec Ideal S512x1024 .f32) :
    k0_pay11 (F := Ideal) v0 m s6 k = mStep (mStep m s6) (sStep v0 k) := rfl
theorem pay12_eq (v0 : FVec Ideal S256x1024 .f32) (m : FVec Ideal S1x256 .f32) (s6 : FVec Ideal S512x256 .f32) (k : FVec Ideal S512x1024 .f32)
    (v : FVec Ideal S512x256 .f32) : k0_pay12 (F := Ideal) v0 m s6 k v = eStep (k0_pay11 (F := Ideal) v0 m s6 k) v := rfl
theorem pay13_eq (v0 : FVec Ideal S256x1024 .f32) (m : FVec Ideal S1x256 .f32) (s6 : FVec Ideal S512x256 .f32) (k : FVec Ideal S512x1024 .f32)
    (v : FVec Ideal S512x256 .f32) : k0_pay13 (F := Ideal) v0 m s6 k v = lStep lInit (eStep (k0_pay11 (F := Ideal) v0 m s6 k) v) := rfl
theorem pay14_eq (v0 : FVec Ideal S256x1024 .f32) (m : FVec Ideal S1x256 .f32) (s6 : FVec Ideal S512x256 .f32) (k : FVec Ideal S512x1024 .f32)
    (v : FVec Ideal S512x256 .f32) : k0_pay14 (F := Ideal) v0 m s6 k v = eStep (k0_pay11 (F := Ideal) v0 m s6 k) v := rfl
theorem pay15_eq (m : FVec Ideal S1x256 .f32) (v : FVec Ideal S512x256 .f32) : k0_pay15 (F := Ideal) m v = eStep m v := rfl
theorem pay16_eq (m : FVec Ideal S1x256 .f32) (v : FVec Ideal S512x256 .f32) : k0_pay16 (F := Ideal) m v = eStep m v := rfl
theorem pay17_eq (m : FVec Ideal S1x256 .f32) (v : FVec Ideal S512x256 .f32) : k0_pay17 (F := Ideal) m v = eStep m v := rfl
theorem pay19_eq (m : FVec Ideal S1x256 .f32) (v : FVec Ideal S512x256 .f32) : k0_pay19 (F := Ideal) m v = eStep m v := rfl
theorem pay20_eq (m : FVec Ideal S1x256 .f32) (v : FVec Ideal S512x256 .f32) : k0_pay20 (F := Ideal) m v = eStep m v := rfl
theorem pay21_eq (m : FVec Ideal S1x256 .f32) (v : FVec Ideal S512x256 .f32) : k0_pay21 (F := Ideal) m v = eStep m v := rfl
theorem pay18_eq (m l : FVec Ideal S1x256 .f32) (e1 v2 v3 v4 : FVec Ideal S512x256 .f32) :
    k0_pay18 (F := Ideal) m l e1 v2 v3 v4 = lStep (lStep (lStep (lStep l e1) (eStep m v2)) (eStep m v3)) (eStep m v4) := rfl
theorem pay22_eq (m l : FVec Ideal S1x256 .f32) (v5 v6 v7 : FVec Ideal S512x256 .f32) :
    k0_pay22 (F := Ideal) m l v5 v6 v7 = lStep (lStep (lStep l (eStep m v5)) (eStep m v6)) (eStep m v7) := rfl
theorem pay24_eq (l one : FVec Ideal S1x256 .f32) : k0_pay24 (F := Ideal) l one = divf one l := rfl
theorem pay25_eq (l one : FVec Ideal S1x256 .f32) (v : FVec Ideal S512x256 .f32) : k0_pay25 (F := Ideal) l one v = pStep (divf one l) v := rfl
theorem pay26_eq (l one : FVec Ideal S1x256 .f32) (v : FVec Ideal S512x256 .f32) : k0_pay26 (F := Ideal) l one v = pStep (divf one l) v := rfl
theorem pay28_eq (l one : FVec Ideal S1x256 .f32) (v : FVec Ideal S512x256 .f32) : k0_pay28 (F := Ideal) l one v = pStep (divf one l) v := rfl
theorem pay29_eq (inv : FVec Ideal S1x256 .f32) (v : FVec Ideal S512x256 .f32) : k0_pay29 (F := Ideal) inv v = pStep inv v := rfl
theorem pay30_eq (inv : FVec Ideal S1x256 .f32) (v : FVec Ideal S512x256 .f32) : k0_pay30 (F := Ideal) inv v = pStep inv v := rfl
theorem pay32_eq (inv : FVec Ideal S1x256 .f32) (v : FVec Ideal S512x256 .f32) : k0_pay32 (F := Ideal) inv v = pStep inv v := rfl
theorem pay33_eq (inv : FVec Ideal S1x256 .f32) (v : FVec Ideal S512x256 .f32) : k0_pay33 (F := Ideal) inv v = pStep inv v := rfl
theorem pay34_eq (inv : FVec Ideal S1x256 .f32) (v : FVec Ideal S512x256 .f32) : k0_pay34 (F := Ideal) inv v = pStep inv v := rfl
theorem pay27_eq (l one : FVec Ideal S1x256 .f32) (v0 : FVec Ideal S512x256 .f32) (V0 : FVec Ideal S512x1024 .bf16)
    (v1 : FVec Ideal S512x256 .f32) (V1 : FVec Ideal S512x1024 .bf16) :
    k0_pay27 (F := Ideal) l one v0 V0 v1 V1 = aStep (aStep aInit (pStep (divf one l) v0) V0) (pStep (divf one l) v1) V1 := rfl
theorem pay31_eq (inv : FVec Ideal S1x256 .f32) (acc : FVec Ideal S256x1024 .f32) (p2 : FVec Ideal S512x256 .f32) (V2 : FVec Ideal S512x1024 .bf16)
    (v3 : FVec Ideal S512x256 .f32) (V3 : FVec Ideal S512x1024 .bf16) (v4 : FVec Ideal S512x256 .f32) (V4 : FVec Ideal S512x1024 .bf16) :
    k0_pay31 (F := Ideal) inv acc p2 V2 v3 V3 v4 V4 = aStep (aStep (aStep acc p2 V2) (pStep inv v3) V3) (pStep inv v4) V4 := rfl
theorem pay35_eq (inv : FVec Ideal S1x256 .f32) (acc : FVec Ideal S256x1024 .f32) (v5 : FVec Ideal S512x256 .f32) (V5 : FVec Ideal S512x1024 .bf16)
    (v6 : FVec Ideal S512x256 .f32) (V6 : FVec Ideal S512x1024 .bf16) (v7 : FVec Ideal S512x256 .f32) (V7 : FVec Ideal S512x1024 .bf16) :
    k0_pay35 (F := Ideal) inv acc v5 V5 v6 V6 v7 V7 = aStep (aStep (aStep acc (pStep inv v5) V5) (pStep inv v6) V6) (pStep inv v7) V7 := rfl

end Cert.KernelIdeal.Body

end
-- ==== Proof.Words.lean ====
/-
  What the body's run leaves, value by value. The run stores each run of scores into the output block, reads it back
  to exponentiate, stores the exponentials over the scores, reads those back to normalise, and stores the weights
  over the exponentials: twenty-four stores of 512 rows each into one 4096 × 256 block, and sixteen reads of rows
  stored earlier. A read of rows [o, o+512) after a list of such stores finds the latest store to the same rows (the
  stores to other rows are disjoint from it), so every value the run names is one of: the block's queries, a run of
  keys or values, or a step of values named before it. This file says which, name by name, in the order the body
  computes them.
-/
import proofs.«168421_j22316650070307_2_alg».proof.Proof.Gen.KernelIdeal.Value
import proofs.«168421_j22316650070307_2_alg».proof.Proof.Spec
import proofs.«168421_j22316650070307_2_alg».proof.Proof.Steps
import Idealize.ShloMosaic.Lib.Pipeline.Value
import Idealize.ShloMosaic.Lib.Pipeline.CanonAppend
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx

namespace Cert.KernelIdeal.Body

open Cert.KernelIdeal Cert.KernelIdeal.Gen Cert.Attn

/-! ## The body's values as functions of the three input blocks -/

/-- Run `j` of the keys: rows 512·j … 512·j+511. -/
def kRun (x1 : Vec Ideal S4096x1024 .f32) (j : Fin 8) : FVec Ideal S512x1024 .f32 := fun y => x1 (ix2 (ck j (y 0)) (y 1))
/-- Run `j` of the values. -/
def vRun (x2 : Vec Ideal S4096x1024 .bf16) (j : Fin 8) : FVec Ideal S512x1024 .bf16 := fun y => x2 (ix2 (ck j (y 0)) (y 1))

/-- Run `j`'s scores. -/
def wS (x0 : Vec Ideal S256x1024 .f32) (x1 : Vec Ideal S4096x1024 .f32) (j : Fin 8) : FVec Ideal S512x256 .f32 := sStep x0 (kRun x1 j)
/-- The column maxima after three, six and all eight runs. -/
def wM1 (x0 : Vec Ideal S256x1024 .f32) (x1 : Vec Ideal S4096x1024 .f32) : FVec Ideal S1x256 .f32 :=
  mStep (mStep (mStep mInit (wS x0 x1 0)) (wS x0 x1 1)) (wS x0 x1 2)
def wM2 (x0 : Vec Ideal S256x1024 .f32) (x1 : Vec Ideal S4096x1024 .f32) : FVec Ideal S1x256 .f32 :=
  mStep (mStep (mStep (wM1 x0 x1) (wS x0 x1 3)) (wS x0 x1 4)) (wS x0 x1 5)
def wM (x0 : Vec Ideal S256x1024 .f32) (x1 : Vec Ideal S4096x1024 .f32) : FVec Ideal S1x256 .f32 :=
  mStep (mStep (wM2 x0 x1) (wS x0 x1 6)) (wS x0 x1 7)
/-- Run `j`'s exponentials. -/
def wE (x0 : Vec Ideal S256x1024 .f32) (x1 : Vec Ideal S4096x1024 .f32) (j : Fin 8) : FVec Ideal S512x256 .f32 := eStep (wM x0 x1) (wS x0 x1 j)
/-- The column sums after one, five and all eight runs. -/
def wL5 (x0 : Vec Ideal S256x1024 .f32) (x1 : Vec Ideal S4096x1024 .f32) : FVec Ideal S1x256 .f32 := lStep lInit (wE x0 x1 0)
def wL7 (x0 : Vec Ideal S256x1024 .f32) (x1 : Vec Ideal S4096x1024 .f32) : FVec Ideal S1x256 .f32 :=
  lStep (lStep (lStep (lStep (wL5 x0 x1) (wE x0 x1 1)) (wE x0 x1 2)) (wE x0 x1 3)) (wE x0 x1 4)
def wL8 (x0 : Vec Ideal S256x1024 .f32) (x1 : Vec Ideal S4096x1024 .f32) : FVec Ideal S1x256 .f32 :=
  lStep (lStep (lStep (wL7 x0 x1) (wE x0 x1 5)) (wE x0 x1 6)) (wE x0 x1 7)
/-- The reciprocal column sums. -/
def wINV (x0 : Vec Ideal S256x1024 .f32) (x1 : Vec Ideal S4096x1024 .f32) : FVec Ideal S1x256 .f32 := divf ones (wL8 x0 x1)
/-- Run `j`'s weights. -/
def wP (x0 : Vec Ideal S256x1024 .f32) (x1 : Vec Ideal S4096x1024 .f32) (j : Fin 8) : FVec Ideal S512x256 .f32 := pStep (wINV x0 x1) (wE x0 x1 j)
/-- The weighted values after two, five and all eight runs. -/
def wA10 (x0 : Vec Ideal S256x1024 .f32) (x1 : Vec Ideal S4096x1024 .f32) (x2 : Vec Ideal S4096x1024 .bf16) : FVec Ideal S256x1024 .f32 :=
  aStep (aStep aInit (wP x0 x1 0) (vRun x2 0)) (wP x0 x1 1) (vRun x2 1)
def wA12 (x0 : Vec Ideal S256x1024 .f32) (x1 : Vec Ideal S4096x1024 .f32) (x2 : Vec Ideal S4096x1024 .bf16) : FVec Ideal S256x1024 .f32 :=
  aStep (aStep (aStep (wA10 x0 x1 x2) (wP x0 x1 2) (vRun x2 2)) (wP x0 x1 3) (vRun x2 3)) (wP x0 x1 4) (vRun x2 4)
def wA13 (x0 : Vec Ideal S256x1024 .f32) (x1 : Vec Ideal S4096x1024 .f32) (x2 : Vec Ideal S4096x1024 .bf16) : FVec Ideal S256x1024 .f32 :=
  aStep (aStep (aStep (wA12 x0 x1 x2) (wP x0 x1 5) (vRun x2 5)) (wP x0 x1 6) (vRun x2 6)) (wP x0 x1 7) (vRun x2 7)

/-! ## Stores and reads of 512 rows of the output block -/

/-- Rows [o, o+512) of the 4096 × 256 block, all 256 columns. -/
abbrev R (o : Nat) (pf : ∀ a, (![o, 0] : Fin 2 → Nat) a + S512x256.size a ≤ S4096x256.size a) : Rect S4096x256 :=
  Rect.unit ![o, 0] S512x256.size pf
/-- A store of those rows. -/
abbrev pc (o : Nat) (pf : ∀ a, (![o, 0] : Fin 2 → Nat) a + S512x256.size a ≤ S4096x256.size a) (w : (R o pf).shape.Idx → Elt Ideal .f32) :
    View.Piece (Elt Ideal) S4096x256 .f32 := ⟨R o pf, w⟩
theorem inbR (o : Nat) (h : o + 512 ≤ 4096) : ∀ a, (![o, 0] : Fin 2 → Nat) a + S512x256.size a ≤ S4096x256.size a :=
  Fin.forall_fin_two.mpr ⟨h, (by show (0 : Nat) + 256 ≤ 256; decide)⟩

/-- A read of the rows the latest store wrote reads what it stored. -/
theorem readCov_hit {κ : Kind} {sp : Space} (v : View sig κ sp S4096x256 .f32) (o : Nat) (pf pf') (w : (R o pf).shape.Idx → Elt Ideal .f32)
    (L : List (View.Piece (Elt Ideal) S4096x256 .f32)) :
    v.readCov (pc o pf w :: L) (R o pf').toLoadRect = w :=
  View.readCov_cons_toLoadRect v (R o pf) w L

/-- A read of other rows than the latest store wrote reads the earlier stores. -/
theorem readCov_skip {κ : Kind} {sp : Space} (v : View sig κ sp S4096x256 .f32) (o o' : Nat) (pf pf') (w : (R o pf).shape.Idx → Elt Ideal .f32)
    (L : List (View.Piece (Elt Ideal) S4096x256 .f32)) (hne : o + 512 ≤ o' ∨ o' + 512 ≤ o) :
    v.readCov (pc o pf w :: L) (R o' pf').toLoadRect = v.readCov L (R o' pf').toLoadRect :=
  View.readCov_cons_of_disjoint v (pc o pf w) L (R o' pf').toLoadRect (Rect.unit_disjoint (inb := pf) (inb' := pf') (0 : Fin 2) hne)

/-! ## The loads of the input blocks -/

theorem hz : (![0, 0] : Fin 2 → Nat) = fun _ => 0 := funext fun a => by fin_cases a <;> rfl

section
variable (c : Dev nD) (arg1 : Memref sig .tc .vmem S256x1024 .f32) (harg1 : arg1.IsWhole)
  (arg2 : Memref sig .tc .vmem S4096x1024 .f32) (harg2 : arg2.IsWhole)
  (arg3 : Memref sig .tc .vmem S4096x1024 .bf16) (harg3 : arg3.IsWhole)
  (arg5 : Memref sig .tc .vmem S4096x256 .f32)
  (x0 : Vec Ideal S256x1024 .f32) (x1 : Vec Ideal S4096x1024 .f32) (x2 : Vec Ideal S4096x1024 .bf16)

/-- The block's queries, loaded whole. -/
theorem load_q (pf) : View.readAt (Elt Ideal) arg1.view (Rect.unit (s := S256x1024) ![0, 0] S256x1024.size pf).toLoadRect (harg1.unread x0) = x0 := by
  rw [View.readAt_eq_ld, harg1.read_unread, View.ld_unit_zero hz]

/-- Rows [o, o+512) of the keys are run `j` when `o = 512·j`. -/
theorem load_k (o : Nat) (j : Fin 8) (ho : o = j.val * 512) (pf) :
    View.readAt (Elt Ideal) arg2.view (Rect.unit (s := S4096x1024) ![o, 0] S512x1024.size pf).toLoadRect (harg2.unread x1) = kRun x1 j := by
  rw [View.readAt_eq_ld, harg2.read_unread]
  funext y
  show x1 ((Rect.unit (s := S4096x1024) ![o, 0] S512x1024.size pf).emb y) = x1 (ix2 (ck j (y 0)) (y 1))
  refine congrArg x1 (funext fun a => Fin.ext ?_)
  fin_cases a
  · show o + 1 * (y 0).val = j.val * 512 + (y 0).val
    omega
  · show 0 + 1 * (y 1).val = (y 1).val
    omega

/-- Rows [o, o+512) of the values are run `j` when `o = 512·j`. -/
theorem load_v (o : Nat) (j : Fin 8) (ho : o = j.val * 512) (pf) :
    View.readAt (Elt Ideal) arg3.view (Rect.unit (s := S4096x1024) ![o, 0] S512x1024.size pf).toLoadRect (harg3.unread x2) = vRun x2 j := by
  rw [View.readAt_eq_ld, harg3.read_unread]
  funext y
  show x2 ((Rect.unit (s := S4096x1024) ![o, 0] S512x1024.size pf).emb y) = x2 (ix2 (ck j (y 0)) (y 1))
  refine congrArg x2 (funext fun a => Fin.ext ?_)
  fin_cases a
  · show o + 1 * (y 0).val = j.val * 512 + (y 0).val
    omega
  · show 0 + 1 * (y 1).val = (y 1).val
    omega

theorem load_k0 (pf) : View.readAt (Elt Ideal) arg2.view (Rect.unit (s := S4096x1024) ![0, 0] S512x1024.size pf).toLoadRect (harg2.unread x1) = kRun x1 0 :=
  load_k arg2 harg2 x1 0 0 rfl pf
theorem load_v0 (pf) : View.readAt (Elt Ideal) arg3.view (Rect.unit (s := S4096x1024) ![0, 0] S512x1024.size pf).toLoadRect (harg3.unread x2) = vRun x2 0 :=
  load_v arg3 harg3 x2 0 0 rfl pf
theorem load_k1 (pf) : View.readAt (Elt Ideal) arg2.view (Rect.unit (s := S4096x1024) ![512, 0] S512x1024.size pf).toLoadRect (harg2.unread x1) = kRun x1 1 :=
  load_k arg2 harg2 x1 512 1 rfl pf
theorem load_v1 (pf) : View.readAt (Elt Ideal) arg3.view (Rect.unit (s := S4096x1024) ![512, 0] S512x1024.size pf).toLoadRect (harg3.unread x2) = vRun x2 1 :=
  load_v arg3 harg3 x2 512 1 rfl pf
theorem load_k2 (pf) : View.readAt (Elt Ideal) arg2.view (Rect.unit (s := S4096x1024) ![1024, 0] S512x1024.size pf).toLoadRect (harg2.unread x1) = kRun x1 2 :=
  load_k arg2 harg2 x1 1024 2 rfl pf
theorem load_v2 (pf) : View.readAt (Elt Ideal) arg3.view (Rect.unit (s := S4096x1024) ![1024, 0] S512x1024.size pf).toLoadRect (harg3.unread x2) = vRun x2 2 :=
  load_v arg3 harg3 x2 1024 2 rfl pf
theorem load_k3 (pf) : View.readAt (Elt Ideal) arg2.view (Rect.unit (s := S4096x1024) ![1536, 0] S512x1024.size pf).toLoadRect (harg2.unread x1) = kRun x1 3 :=
  load_k arg2 harg2 x1 1536 3 rfl pf
theorem load_v3 (pf) : View.readAt (Elt Ideal) arg3.view (Rect.unit (s := S4096x1024) ![1536, 0] S512x1024.size pf).toLoadRect (harg3.unread x2) = vRun x2 3 :=
  load_v arg3 harg3 x2 1536 3 rfl pf
theorem load_k4 (pf) : View.readAt (Elt Ideal) arg2.view (Rect.unit (s := S4096x1024) ![2048, 0] S512x1024.size pf).toLoadRect (harg2.unread x1) = kRun x1 4 :=
  load_k arg2 harg2 x1 2048 4 rfl pf
theorem load_v4 (pf) : View.readAt (Elt Ideal) arg3.view (Rect.unit (s := S4096x1024) ![2048, 0] S512x1024.size pf).toLoadRect (harg3.unread x2) = vRun x2 4 :=
  load_v arg3 harg3 x2 2048 4 rfl pf
theorem load_k5 (pf) : View.readAt (Elt Ideal) arg2.view (Rect.unit (s := S4096x1024) ![2560, 0] S512x1024.size pf).toLoadRect (harg2.unread x1) = kRun x1 5 :=
  load_k arg2 harg2 x1 2560 5 rfl pf
theorem load_v5 (pf) : View.readAt (Elt Ideal) arg3.view (Rect.unit (s := S4096x1024) ![2560, 0] S512x1024.size pf).toLoadRect (harg3.unread x2) = vRun x2 5 :=
  load_v arg3 harg3 x2 2560 5 rfl pf
theorem load_k6 (pf) : View.readAt (Elt Ideal) arg2.view (Rect.unit (s := S4096x1024) ![3072, 0] S512x1024.size pf).toLoadRect (harg2.unread x1) = kRun x1 6 :=
  load_k arg2 harg2 x1 3072 6 rfl pf
theorem load_v6 (pf) : View.readAt (Elt Ideal) arg3.view (Rect.unit (s := S4096x1024) ![3072, 0] S512x1024.size pf).toLoadRect (harg3.unread x2) = vRun x2 6 :=
  load_v arg3 harg3 x2 3072 6 rfl pf
theorem load_k7 (pf) : View.readAt (Elt Ideal) arg2.view (Rect.unit (s := S4096x1024) ![3584, 0] S512x1024.size pf).toLoadRect (harg2.unread x1) = kRun x1 7 :=
  load_k arg2 harg2 x1 3584 7 rfl pf
theorem load_v7 (pf) : View.readAt (Elt Ideal) arg3.view (Rect.unit (s := S4096x1024) ![3584, 0] S512x1024.size pf).toLoadRect (harg3.unread x2) = vRun x2 7 :=
  load_v arg3 harg3 x2 3584 7 rfl pf

/-! ## Pass one: the scores and the column maxima -/

theorem w_r : kernelRun0_A.sl.r c arg1 harg1 x0 = x0 := by
  delta kernelRun0_A.sl.r
  exact load_q arg1 harg1 x0 _

theorem w_r1 : kernelRun0_A.sl.r_1 c arg1 harg1 arg2 harg2 x0 x1 = wM1 x0 x1 := by
  delta kernelRun0_A.sl.r_1
  erw [load_q, load_k0, load_k1, load_k2]
  rfl

theorem w_r2 : kernelRun0_A.sl.r_2 c arg1 harg1 arg2 harg2 x0 x1 = wM2 x0 x1 := by
  delta kernelRun0_A.sl.r_2
  simp only [w_r, w_r1]
  erw [load_k3, load_k4, load_k5]
  rfl

theorem w_r3 : kernelRun0_A.sl.r_3 c arg1 harg1 arg2 harg2 x0 x1 = wS x0 x1 6 := by
  delta kernelRun0_A.sl.r_3
  simp only [w_r]
  erw [load_k6]
  rfl

theorem w_r4 : kernelRun0_A.sl.r_4 c arg1 harg1 arg2 harg2 x0 x1 = wM x0 x1 := by
  delta kernelRun0_A.sl.r_4
  simp only [w_r, w_r2, w_r3]
  erw [load_k7]
  rfl

/-- The stores after pass one: each run's scores in its rows. -/
abbrev H8 (x0 : Vec Ideal S256x1024 .f32) (x1 : Vec Ideal S4096x1024 .f32) : List (View.Piece (Elt Ideal) S4096x256 .f32) :=
  [pc 3584 (inbR 3584 (by omega)) (wS x0 x1 7), pc 3072 (inbR 3072 (by omega)) (wS x0 x1 6), pc 2560 (inbR 2560 (by omega)) (wS x0 x1 5), pc 2048 (inbR 2048 (by omega)) (wS x0 x1 4), pc 1536 (inbR 1536 (by omega)) (wS x0 x1 3), pc 1024 (inbR 1024 (by omega)) (wS x0 x1 2), pc 512 (inbR 512 (by omega)) (wS x0 x1 1), pc 0 (inbR 0 (by omega)) (wS x0 x1 0)]

theorem w_H4_8 : kernelRun0_A.sl.H4_8 c arg1 harg1 arg2 harg2 x0 x1 = H8 x0 x1 := by
  delta kernelRun0_A.sl.H4_8
  simp only [w_r, w_r3]
  erw [load_q, load_k0, load_k1, load_k2, load_k3, load_k4, load_k5, load_k7]
  rfl

/-! ## Pass two: the exponentials and the column sums -/

/-- Run 0's scores read back. -/
theorem w_v86 : kernelRun0_A.sl.v86 c arg1 harg1 arg2 harg2 arg5 x0 x1 = wS x0 x1 0 := by
  delta kernelRun0_A.sl.v86
  rw [w_H4_8]
  exact ((readCov_skip _ 3584 0 _ _ _ _ (by omega)).trans ((readCov_skip _ 3072 0 _ _ _ _ (by omega)).trans ((readCov_skip _ 2560 0 _ _ _ _ (by omega)).trans ((readCov_skip _ 2048 0 _ _ _ _ (by omega)).trans ((readCov_skip _ 1536 0 _ _ _ _ (by omega)).trans ((readCov_skip _ 1024 0 _ _ _ _ (by omega)).trans ((readCov_skip _ 512 0 _ _ _ _ (by omega)).trans (readCov_hit _ 0 _ _ _ _))))))))

/-- The stores once run 0's exponentials are stored over its scores. -/
abbrev H9 (x0 : Vec Ideal S256x1024 .f32) (x1 : Vec Ideal S4096x1024 .f32) : List (View.Piece (Elt Ideal) S4096x256 .f32) :=
  pc 0 (inbR 0 (by omega)) (wE x0 x1 0) :: H8 x0 x1

theorem w_H4_9 : kernelRun0_A.sl.H4_9 c arg1 harg1 arg2 harg2 arg5 x0 x1 = H9 x0 x1 := by
  delta kernelRun0_A.sl.H4_9
  simp only [w_r, w_r2, w_r3, w_r4, w_v86, w_H4_8]
  erw [load_k7]
  rfl

theorem w_r5 : kernelRun0_A.sl.r_5 c arg1 harg1 arg2 harg2 arg5 x0 x1 = wL5 x0 x1 := by
  delta kernelRun0_A.sl.r_5
  simp only [w_r, w_r2, w_r3, w_v86]
  erw [load_k7]
  rfl

/-- Run 1's scores read back. -/
theorem w_v99 : kernelRun0_A.sl.v99 c arg1 harg1 arg2 harg2 arg5 x0 x1 = wS x0 x1 1 := by
  delta kernelRun0_A.sl.v99
  rw [w_H4_9]
  exact ((readCov_skip _ 0 512 _ _ _ _ (by omega)).trans ((readCov_skip _ 3584 512 _ _ _ _ (by omega)).trans ((readCov_skip _ 3072 512 _ _ _ _ (by omega)).trans ((readCov_skip _ 2560 512 _ _ _ _ (by omega)).trans ((readCov_skip _ 2048 512 _ _ _ _ (by omega)).trans ((readCov_skip _ 1536 512 _ _ _ _ (by omega)).trans ((readCov_skip _ 1024 512 _ _ _ _ (by omega)).trans (readCov_hit _ 512 _ _ _ _))))))))

/-- The stores once run 1's exponentials are stored over its scores. -/
abbrev H10 (x0 : Vec Ideal S256x1024 .f32) (x1 : Vec Ideal S4096x1024 .f32) : List (View.Piece (Elt Ideal) S4096x256 .f32) :=
  pc 512 (inbR 512 (by omega)) (wE x0 x1 1) :: H9 x0 x1

theorem w_H4_10 : kernelRun0_A.sl.H4_10 c arg1 harg1 arg2 harg2 arg5 x0 x1 = H10 x0 x1 := by
  delta kernelRun0_A.sl.H4_10
  simp only [w_r, w_r2, w_r3, w_r4, w_v99, w_H4_9]
  erw [load_k7]
  rfl

theorem w_r6 : kernelRun0_A.sl.r_6 c arg1 harg1 arg2 harg2 arg5 x0 x1 = wE x0 x1 1 := by
  delta kernelRun0_A.sl.r_6
  simp only [w_r, w_r2, w_r3, w_v99]
  erw [load_k7]
  rfl

/-- Run 2's scores read back. -/
theorem w_v112 : kernelRun0_A.sl.v112 c arg1 harg1 arg2 harg2 arg5 x0 x1 = wS x0 x1 2 := by
  delta kernelRun0_A.sl.v112
  rw [w_H4_10]
  exact ((readCov_skip _ 512 1024 _ _ _ _ (by omega)).trans ((readCov_skip _ 0 1024 _ _ _ _ (by omega)).trans ((readCov_skip _ 3584 1024 _ _ _ _ (by omega)).trans ((readCov_skip _ 3072 1024 _ _ _ _ (by omega)).trans ((readCov_skip _ 2560 1024 _ _ _ _ (by omega)).trans ((readCov_skip _ 2048 1024 _ _ _ _ (by omega)).trans ((readCov_skip _ 1536 1024 _ _ _ _ (by omega)).trans (readCov_hit _ 1024 _ _ _ _))))))))

/-- The stores once run 2's exponentials are stored over its scores. -/
abbrev H11 (x0 : Vec Ideal S256x1024 .f32) (x1 : Vec Ideal S4096x1024 .f32) : List (View.Piece (Elt Ideal) S4096x256 .f32) :=
  pc 1024 (inbR 1024 (by omega)) (wE x0 x1 2) :: H10 x0 x1

theorem w_H4_11 : kernelRun0_A.sl.H4_11 c arg1 harg1 arg2 harg2 arg5 x0 x1 = H11 x0 x1 := by
  delta kernelRun0_A.sl.H4_11
  simp only [w_r, w_r2, w_r3, w_r4, w_v112, w_H4_10]
  rfl

/-- Run 3's scores read back. -/
theorem w_v125 : kernelRun0_A.sl.v125 c arg1 harg1 arg2 harg2 arg5 x0 x1 = wS x0 x1 3 := by
  delta kernelRun0_A.sl.v125
  rw [w_H4_11]
  exact ((readCov_skip _ 1024 1536 _ _ _ _ (by omega)).trans ((readCov_skip _ 512 1536 _ _ _ _ (by omega)).trans ((readCov_skip _ 0 1536 _ _ _ _ (by omega)).trans ((readCov_skip _ 3584 1536 _ _ _ _ (by omega)).trans ((readCov_skip _ 3072 1536 _ _ _ _ (by omega)).trans ((readCov_skip _ 2560 1536 _ _ _ _ (by omega)).trans ((readCov_skip _ 2048 1536 _ _ _ _ (by omega)).trans (readCov_hit _ 1536 _ _ _ _))))))))

/-- The stores once run 3's exponentials are stored over its scores. -/
abbrev H12 (x0 : Vec Ideal S256x1024 .f32) (x1 : Vec Ideal S4096x1024 .f32) : List (View.Piece (Elt Ideal) S4096x256 .f32) :=
  pc 1536 (inbR 1536 (by omega)) (wE x0 x1 3) :: H11 x0 x1

theorem w_H4_12 : kernelRun0_A.sl.H4_12 c arg1 harg1 arg2 harg2 arg5 x0 x1 = H12 x0 x1 := by
  delta kernelRun0_A.sl.H4_12
  simp only [w_r, w_r2, w_r3, w_r4, w_v125, w_H4_11]
  rfl

/-- Run 4's scores read back. -/
theorem w_v138 : kernelRun0_A.sl.v138 c arg1 harg1 arg2 harg2 arg5 x0 x1 = wS x0 x1 4 := by
  delta kernelRun0_A.sl.v138
  rw [w_H4_12]
  exact ((readCov_skip _ 1536 2048 _ _ _ _ (by omega)).trans ((readCov_skip _ 1024 2048 _ _ _ _ (by omega)).trans ((readCov_skip _ 512 2048 _ _ _ _ (by omega)).trans ((readCov_skip _ 0 2048 _ _ _ _ (by omega)).trans ((readCov_skip _ 3584 2048 _ _ _ _ (by omega)).trans ((readCov_skip _ 3072 2048 _ _ _ _ (by omega)).trans ((readCov_skip _ 2560 2048 _ _ _ _ (by omega)).trans (readCov_hit _ 2048 _ _ _ _))))))))

/-- The stores once run 4's exponentials are stored over its scores. -/
abbrev H13 (x0 : Vec Ideal S256x1024 .f32) (x1 : Vec Ideal S4096x1024 .f32) : List (View.Piece (Elt Ideal) S4096x256 .f32) :=
  pc 2048 (inbR 2048 (by omega)) (wE x0 x1 4) :: H12 x0 x1

theorem w_H4_13 : kernelRun0_A.sl.H4_13 c arg1 harg1 arg2 harg2 arg5 x0 x1 = H13 x0 x1 := by
  delta kernelRun0_A.sl.H4_13
  simp only [w_r, w_r2, w_r3, w_r4, w_v138, w_H4_12]
  rfl

/-- Run 5's scores read back. -/
theorem w_v151 : kernelRun0_A.sl.v151 c arg1 harg1 arg2 harg2 arg5 x0 x1 = wS x0 x1 5 := by
  delta kernelRun0_A.sl.v151
  rw [w_H4_13]
  exact ((readCov_skip _ 2048 2560 _ _ _ _ (by omega)).trans ((readCov_skip _ 1536 2560 _ _ _ _ (by omega)).trans ((readCov_skip _ 1024 2560 _ _ _ _ (by omega)).trans ((readCov_skip _ 512 2560 _ _ _ _ (by omega)).trans ((readCov_skip _ 0 2560 _ _ _ _ (by omega)).trans ((readCov_skip _ 3584 2560 _ _ _ _ (by omega)).trans ((readCov_skip _ 3072 2560 _ _ _ _ (by omega)).trans (readCov_hit _ 2560 _ _ _ _))))))))

/-- The stores once run 5's exponentials are stored over its scores. -/
abbrev H14 (x0 : Vec Ideal S256x1024 .f32) (x1 : Vec Ideal S4096x1024 .f32) : List (View.Piece (Elt Ideal) S4096x256 .f32) :=
  pc 2560 (inbR 2560 (by omega)) (wE x0 x1 5) :: H13 x0 x1

theorem w_H4_14 : kernelRun0_A.sl.H4_14 c arg1 harg1 arg2 harg2 arg5 x0 x1 = H14 x0 x1 := by
  delta kernelRun0_A.sl.H4_14
  simp only [w_r, w_r2, w_r3, w_r4, w_v151, w_H4_13]
  rfl

/-- Run 6's scores read back. -/
theorem w_v164 : kernelRun0_A.sl.v164 c arg1 harg1 arg2 harg2 arg5 x0 x1 = wS x0 x1 6 := by
  delta kernelRun0_A.sl.v164
  rw [w_H4_14]
  exact ((readCov_skip _ 2560 3072 _ _ _ _ (by omega)).trans ((readCov_skip _ 2048 3072 _ _ _ _ (by omega)).trans ((readCov_skip _ 1536 3072 _ _ _ _ (by omega)).trans ((readCov_skip _ 1024 3072 _ _ _ _ (by omega)).trans ((readCov_skip _ 512 3072 _ _ _ _ (by omega)).trans ((readCov_skip _ 0 3072 _ _ _ _ (by omega)).trans ((readCov_skip _ 3584 3072 _ _ _ _ (by omega)).trans (readCov_hit _ 3072 _ _ _ _))))))))

/-- The stores once run 6's exponentials are stored over its scores. -/
abbrev H15 (x0 : Vec Ideal S256x1024 .f32) (x1 : Vec Ideal S4096x1024 .f32) : List (View.Piece (Elt Ideal) S4096x256 .f32) :=
  pc 3072 (inbR 3072 (by omega)) (wE x0 x1 6) :: H14 x0 x1

theorem w_H4_15 : kernelRun0_A.sl.H4_15 c arg1 harg1 arg2 harg2 arg5 x0 x1 = H15 x0 x1 := by
  delta kernelRun0_A.sl.H4_15
  simp only [w_r, w_r2, w_r3, w_r4, w_v164, w_H4_14]
  rfl

/-- Run 7's scores read back. -/
theorem w_v177 : kernelRun0_A.sl.v177 c arg1 harg1 arg2 harg2 arg5 x0 x1 = wS x0 x1 7 := by
  delta kernelRun0_A.sl.v177
  rw [w_H4_15]
  exact ((readCov_skip _ 3072 3584 _ _ _ _ (by omega)).trans ((readCov_skip _ 2560 3584 _ _ _ _ (by omega)).trans ((readCov_skip _ 2048 3584 _ _ _ _ (by omega)).trans ((readCov_skip _ 1536 3584 _ _ _ _ (by omega)).trans ((readCov_skip _ 1024 3584 _ _ _ _ (by omega)).trans ((readCov_skip _ 512 3584 _ _ _ _ (by omega)).trans ((readCov_skip _ 0 3584 _ _ _ _ (by omega)).trans (readCov_hit _ 3584 _ _ _ _))))))))

/-- The stores once run 7's exponentials are stored over its scores. -/
abbrev H16 (x0 : Vec Ideal S256x1024 .f32) (x1 : Vec Ideal S4096x1024 .f32) : List (View.Piece (Elt Ideal) S4096x256 .f32) :=
  pc 3584 (inbR 3584 (by omega)) (wE x0 x1 7) :: H15 x0 x1

theorem w_H4_16 : kernelRun0_A.sl.H4_16 c arg1 harg1 arg2 harg2 arg5 x0 x1 = H16 x0 x1 := by
  delta kernelRun0_A.sl.H4_16
  simp only [w_r, w_r2, w_r3, w_r4, w_v177, w_H4_15]
  rfl

theorem w_r7 : kernelRun0_A.sl.r_7 c arg1 harg1 arg2 harg2 arg5 x0 x1 = wL7 x0 x1 := by
  delta kernelRun0_A.sl.r_7
  simp only [w_r4, w_r5, w_r6, w_v112, w_v125, w_v138]
  rfl

theorem w_r8 : kernelRun0_A.sl.r_8 c arg1 harg1 arg2 harg2 arg5 x0 x1 = wL8 x0 x1 := by
  delta kernelRun0_A.sl.r_8
  simp only [w_r4, w_r7, w_v151, w_v164, w_v177]
  rfl

theorem w_r9 : kernelRun0_A.sl.r_9 c arg1 harg1 arg2 harg2 arg5 x0 x1 = wINV x0 x1 := by
  delta kernelRun0_A.sl.r_9
  simp only [w_r8]
  rfl

/-! ## Pass three: the weights and the weighted values -/

/-- Run 0's exponentials read back. -/
theorem w_v193 : kernelRun0_A.sl.v193 c arg1 harg1 arg2 harg2 arg5 x0 x1 = wE x0 x1 0 := by
  delta kernelRun0_A.sl.v193
  rw [w_H4_16]
  exact ((readCov_skip _ 3584 0 _ _ _ _ (by omega)).trans ((readCov_skip _ 3072 0 _ _ _ _ (by omega)).trans ((readCov_skip _ 2560 0 _ _ _ _ (by omega)).trans ((readCov_skip _ 2048 0 _ _ _ _ (by omega)).trans ((readCov_skip _ 1536 0 _ _ _ _ (by omega)).trans ((readCov_skip _ 1024 0 _ _ _ _ (by omega)).trans ((readCov_skip _ 512 0 _ _ _ _ (by omega)).trans (readCov_hit _ 0 _ _ _ _))))))))

/-- The stores once run 0's weights are stored over its exponentials. -/
abbrev H17 (x0 : Vec Ideal S256x1024 .f32) (x1 : Vec Ideal S4096x1024 .f32) : List (View.Piece (Elt Ideal) S4096x256 .f32) :=
  pc 0 (inbR 0 (by omega)) (wP x0 x1 0) :: H16 x0 x1

theorem w_H4_17 : kernelRun0_A.sl.H4_17 c arg1 harg1 arg2 harg2 arg5 x0 x1 = H17 x0 x1 := by
  delta kernelRun0_A.sl.H4_17
  simp only [w_r8, w_r9, w_v193, w_H4_16]
  rfl

/-- Run 1's exponentials read back. -/
theorem w_v208 : kernelRun0_A.sl.v208 c arg1 harg1 arg2 harg2 arg5 x0 x1 = wE x0 x1 1 := by
  delta kernelRun0_A.sl.v208
  rw [w_H4_17]
  exact ((readCov_skip _ 0 512 _ _ _ _ (by omega)).trans ((readCov_skip _ 3584 512 _ _ _ _ (by omega)).trans ((readCov_skip _ 3072 512 _ _ _ _ (by omega)).trans ((readCov_skip _ 2560 512 _ _ _ _ (by omega)).trans ((readCov_skip _ 2048 512 _ _ _ _ (by omega)).trans ((readCov_skip _ 1536 512 _ _ _ _ (by omega)).trans ((readCov_skip _ 1024 512 _ _ _ _ (by omega)).trans (readCov_hit _ 512 _ _ _ _))))))))

/-- The stores once run 1's weights are stored over its exponentials. -/
abbrev H18 (x0 : Vec Ideal S256x1024 .f32) (x1 : Vec Ideal S4096x1024 .f32) : List (View.Piece (Elt Ideal) S4096x256 .f32) :=
  pc 512 (inbR 512 (by omega)) (wP x0 x1 1) :: H17 x0 x1

theorem w_H4_18 : kernelRun0_A.sl.H4_18 c arg1 harg1 arg2 harg2 arg5 x0 x1 = H18 x0 x1 := by
  delta kernelRun0_A.sl.H4_18
  simp only [w_r8, w_r9, w_v208, w_H4_17]
  rfl

/-- Run 2's exponentials read back. -/
theorem w_v223 : kernelRun0_A.sl.v223 c arg1 harg1 arg2 harg2 arg5 x0 x1 = wE x0 x1 2 := by
  delta kernelRun0_A.sl.v223
  rw [w_H4_18]
  exact ((readCov_skip _ 512 1024 _ _ _ _ (by omega)).trans ((readCov_skip _ 0 1024 _ _ _ _ (by omega)).trans ((readCov_skip _ 3584 1024 _ _ _ _ (by omega)).trans ((readCov_skip _ 3072 1024 _ _ _ _ (by omega)).trans ((readCov_skip _ 2560 1024 _ _ _ _ (by omega)).trans ((readCov_skip _ 2048 1024 _ _ _ _ (by omega)).trans ((readCov_skip _ 1536 1024 _ _ _ _ (by omega)).trans (readCov_hit _ 1024 _ _ _ _))))))))

theorem w_r11 : kernelRun0_A.sl.r_11 c arg1 harg1 arg2 harg2 arg5 x0 x1 = wP x0 x1 2 := by
  delta kernelRun0_A.sl.r_11
  simp only [w_r8, w_v223]
  rfl

/-- The stores once run 2's weights are stored over its exponentials. -/
abbrev H19 (x0 : Vec Ideal S256x1024 .f32) (x1 : Vec Ideal S4096x1024 .f32) : List (View.Piece (Elt Ideal) S4096x256 .f32) :=
  pc 1024 (inbR 1024 (by omega)) (wP x0 x1 2) :: H18 x0 x1

theorem w_H4_19 : kernelRun0_A.sl.H4_19 c arg1 harg1 arg2 harg2 arg5 x0 x1 = H19 x0 x1 := by
  delta kernelRun0_A.sl.H4_19
  simp only [w_r8, w_r9, w_r11, w_H4_18]

/-- Run 3's exponentials read back. -/
theorem w_v238 : kernelRun0_A.sl.v238 c arg1 harg1 arg2 harg2 arg5 x0 x1 = wE x0 x1 3 := by
  delta kernelRun0_A.sl.v238
  rw [w_H4_19]
  exact ((readCov_skip _ 1024 1536 _ _ _ _ (by omega)).trans ((readCov_skip _ 512 1536 _ _ _ _ (by omega)).trans ((readCov_skip _ 0 1536 _ _ _ _ (by omega)).trans ((readCov_skip _ 3584 1536 _ _ _ _ (by omega)).trans ((readCov_skip _ 3072 1536 _ _ _ _ (by omega)).trans ((readCov_skip _ 2560 1536 _ _ _ _ (by omega)).trans ((readCov_skip _ 2048 1536 _ _ _ _ (by omega)).trans (readCov_hit _ 1536 _ _ _ _))))))))

/-- The stores once run 3's weights are stored over its exponentials. -/
abbrev H20 (x0 : Vec Ideal S256x1024 .f32) (x1 : Vec Ideal S4096x1024 .f32) : List (View.Piece (Elt Ideal) S4096x256 .f32) :=
  pc 1536 (inbR 1536 (by omega)) (wP x0 x1 3) :: H19 x0 x1

theorem w_H4_20 : kernelRun0_A.sl.H4_20 c arg1 harg1 arg2 harg2 arg5 x0 x1 = H20 x0 x1 := by
  delta kernelRun0_A.sl.H4_20
  simp only [w_r8, w_r9, w_v238, w_H4_19]
  rfl

/-- Run 4's exponentials read back. -/
theorem w_v253 : kernelRun0_A.sl.v253 c arg1 harg1 arg2 harg2 arg5 x0 x1 = wE x0 x1 4 := by
  delta kernelRun0_A.sl.v253
  rw [w_H4_20]
  exact ((readCov_skip _ 1536 2048 _ _ _ _ (by omega)).trans ((readCov_skip _ 1024 2048 _ _ _ _ (by omega)).trans ((readCov_skip _ 512 2048 _ _ _ _ (by omega)).trans ((readCov_skip _ 0 2048 _ _ _ _ (by omega)).trans ((readCov_skip _ 3584 2048 _ _ _ _ (by omega)).trans ((readCov_skip _ 3072 2048 _ _ _ _ (by omega)).trans ((readCov_skip _ 2560 2048 _ _ _ _ (by omega)).trans (readCov_hit _ 2048 _ _ _ _))))))))

/-- The stores once run 4's weights are stored over its exponentials. -/
abbrev H21 (x0 : Vec Ideal S256x1024 .f32) (x1 : Vec Ideal S4096x1024 .f32) : List (View.Piece (Elt Ideal) S4096x256 .f32) :=
  pc 2048 (inbR 2048 (by omega)) (wP x0 x1 4) :: H20 x0 x1

theorem w_H4_21 : kernelRun0_A.sl.H4_21 c arg1 harg1 arg2 harg2 arg5 x0 x1 = H21 x0 x1 := by
  delta kernelRun0_A.sl.H4_21
  simp only [w_r8, w_r9, w_v253, w_H4_20]
  rfl

/-- Run 5's exponentials read back. -/
theorem w_v268 : kernelRun0_A.sl.v268 c arg1 harg1 arg2 harg2 arg5 x0 x1 = wE x0 x1 5 := by
  delta kernelRun0_A.sl.v268
  rw [w_H4_21]
  exact ((readCov_skip _ 2048 2560 _ _ _ _ (by omega)).trans ((readCov_skip _ 1536 2560 _ _ _ _ (by omega)).trans ((readCov_skip _ 1024 2560 _ _ _ _ (by omega)).trans ((readCov_skip _ 512 2560 _ _ _ _ (by omega)).trans ((readCov_skip _ 0 2560 _ _ _ _ (by omega)).trans ((readCov_skip _ 3584 2560 _ _ _ _ (by omega)).trans ((readCov_skip _ 3072 2560 _ _ _ _ (by omega)).trans (readCov_hit _ 2560 _ _ _ _))))))))

/-- The stores once run 5's weights are stored over its exponentials. -/
abbrev H22 (x0 : Vec Ideal S256x1024 .f32) (x1 : Vec Ideal S4096x1024 .f32) : List (View.Piece (Elt Ideal) S4096x256 .f32) :=
  pc 2560 (inbR 2560 (by omega)) (wP x0 x1 5) :: H21 x0 x1

theorem w_H4_22 : kernelRun0_A.sl.H4_22 c arg1 harg1 arg2 harg2 arg5 x0 x1 = H22 x0 x1 := by
  delta kernelRun0_A.sl.H4_22
  simp only [w_r8, w_r9, w_v268, w_H4_21]
  rfl

/-- Run 6's exponentials read back. -/
theorem w_v283 : kernelRun0_A.sl.v283 c arg1 harg1 arg2 harg2 arg5 x0 x1 = wE x0 x1 6 := by
  delta kernelRun0_A.sl.v283
  rw [w_H4_22]
  exact ((readCov_skip _ 2560 3072 _ _ _ _ (by omega)).trans ((readCov_skip _ 2048 3072 _ _ _ _ (by omega)).trans ((readCov_skip _ 1536 3072 _ _ _ _ (by omega)).trans ((readCov_skip _ 1024 3072 _ _ _ _ (by omega)).trans ((readCov_skip _ 512 3072 _ _ _ _ (by omega)).trans ((readCov_skip _ 0 3072 _ _ _ _ (by omega)).trans ((readCov_skip _ 3584 3072 _ _ _ _ (by omega)).trans (readCov_hit _ 3072 _ _ _ _))))))))

/-- The stores once run 6's weights are stored over its exponentials. -/
abbrev H23 (x0 : Vec Ideal S256x1024 .f32) (x1 : Vec Ideal S4096x1024 .f32) : List (View.Piece (Elt Ideal) S4096x256 .f32) :=
  pc 3072 (inbR 3072 (by omega)) (wP x0 x1 6) :: H22 x0 x1

theorem w_H4_23 : kernelRun0_A.sl.H4_23 c arg1 harg1 arg2 harg2 arg5 x0 x1 = H23 x0 x1 := by
  delta kernelRun0_A.sl.H4_23
  simp only [w_r8, w_r9, w_v283, w_H4_22]
  rfl

/-- Run 7's exponentials read back. -/
theorem w_v298 : kernelRun0_A.sl.v298 c arg1 harg1 arg2 harg2 arg5 x0 x1 = wE x0 x1 7 := by
  delta kernelRun0_A.sl.v298
  rw [w_H4_23]
  exact ((readCov_skip _ 3072 3584 _ _ _ _ (by omega)).trans ((readCov_skip _ 2560 3584 _ _ _ _ (by omega)).trans ((readCov_skip _ 2048 3584 _ _ _ _ (by omega)).trans ((readCov_skip _ 1536 3584 _ _ _ _ (by omega)).trans ((readCov_skip _ 1024 3584 _ _ _ _ (by omega)).trans ((readCov_skip _ 512 3584 _ _ _ _ (by omega)).trans ((readCov_skip _ 0 3584 _ _ _ _ (by omega)).trans (readCov_hit _ 3584 _ _ _ _))))))))

/-- The stores once run 7's weights are stored over its exponentials. -/
abbrev H24 (x0 : Vec Ideal S256x1024 .f32) (x1 : Vec Ideal S4096x1024 .f32) : List (View.Piece (Elt Ideal) S4096x256 .f32) :=
  pc 3584 (inbR 3584 (by omega)) (wP x0 x1 7) :: H23 x0 x1

theorem w_r10 : kernelRun0_A.sl.r_10 c arg1 harg1 arg2 harg2 arg3 harg3 arg5 x0 x1 x2 = wA10 x0 x1 x2 := by
  delta kernelRun0_A.sl.r_10
  simp only [w_r8, w_v193, w_v208]
  erw [load_v0, load_v1]
  rfl

theorem w_r12 : kernelRun0_A.sl.r_12 c arg1 harg1 arg2 harg2 arg3 harg3 arg5 x0 x1 x2 = wA12 x0 x1 x2 := by
  delta kernelRun0_A.sl.r_12
  simp only [w_r9, w_r10, w_r11, w_v238, w_v253]
  erw [load_v2, load_v3, load_v4]
  rfl

theorem w_r13 : kernelRun0_A.sl.r_13 c arg1 harg1 arg2 harg2 arg3 harg3 arg5 x0 x1 x2 = wA13 x0 x1 x2 := by
  delta kernelRun0_A.sl.r_13
  simp only [w_r9, w_r12, w_v268, w_v283, w_v298]
  erw [load_v5, load_v6, load_v7]
  rfl

end

end Cert.KernelIdeal.Body

end
-- ==== Proof.Values.lean ====
/-
  The body's values read at an index. For the block's query `c` write s(k) = ∑ d, K[k,d] · Q[c,d] for the score
  of key `k`. Then, at column `c`: run `j`'s scores at row `r` are s(512·j + r); the running maximum after the
  eight runs is the maximum of s over all 4096 keys; run `j`'s exponentials are exp (s(512·j + r) − max s); the
  running sum after the eight runs is the sum of all 4096 exponentials; run `j`'s weights are the exponentials
  times the reciprocal of that sum; and the running product at (c, e) after the eight runs is the sum over all
  4096 keys of weight times value.
-/
import proofs.«168421_j22316650070307_2_alg».proof.Proof.Gen.KernelIdeal.Value
import proofs.«168421_j22316650070307_2_alg».proof.Proof.Spec
import proofs.«168421_j22316650070307_2_alg».proof.Proof.Steps
import proofs.«168421_j22316650070307_2_alg».proof.Proof.Chunks
import proofs.«168421_j22316650070307_2_alg».proof.Proof.Words
import Idealize.ShloMosaic.Lib.Pipeline.Value
import Idealize.ShloMosaic.Lib.Pipeline.CanonAppend
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx

namespace Cert.KernelIdeal.Body

open Cert.KernelIdeal Cert.KernelIdeal.Gen Cert.Attn

/-- The scores of the block's query `c`: key `k` against it. -/
def sc (x0 : Vec Ideal S256x1024 .f32) (x1 : Vec Ideal S4096x1024 .f32) (c : Fin 256) (k : Fin 4096) : EReal :=
  ∑ d : Fin 1024, x1 (ix2 k d) * x0 (ix2 c d)

/-- A softmax weight taken with the reciprocal: the exponential times 1 / (the column's sum). -/
def attnRecip (s : Fin 4096 → EReal) (k : Fin 4096) : EReal := exOf s k * Ideal.div 1 (colSumOf s)

/-- With a nonzero column sum the reciprocal form is the quotient. -/
theorem attnRecip_eq (s : Fin 4096 → EReal) (hs : colSumOf s ≠ 0) (k : Fin 4096) : attnRecip s k = attnOf s k :=
  mul_div_one_eq_div _ _ hs

theorem wS_apply (x0 : Vec Ideal S256x1024 .f32) (x1 : Vec Ideal S4096x1024 .f32) (j : Fin 8) (r : Fin 512) (c : Fin 256) :
    wS x0 x1 j (ix2 r c) = sc x0 x1 c (ck j r) := by
  unfold wS
  rw [sStep_apply]
  rfl

theorem wM_apply (x0 : Vec Ideal S256x1024 .f32) (x1 : Vec Ideal S4096x1024 .f32) (u : Fin 1) (c : Fin 256) :
    wM x0 x1 (ix2 u c) = colMaxOf (sc x0 x1 c) := by
  unfold wM wM2 wM1
  simp only [mStep_apply, mInit_apply, wS_apply]
  exact sup_chunks8 (sc x0 x1 c)

theorem wE_apply (x0 : Vec Ideal S256x1024 .f32) (x1 : Vec Ideal S4096x1024 .f32) (j : Fin 8) (r : Fin 512) (c : Fin 256) :
    wE x0 x1 j (ix2 r c) = exOf (sc x0 x1 c) (ck j r) := by
  unfold wE
  rw [eStep_apply, wS_apply, wM_apply]
  rfl

theorem wL8_apply (x0 : Vec Ideal S256x1024 .f32) (x1 : Vec Ideal S4096x1024 .f32) (u : Fin 1) (c : Fin 256) :
    wL8 x0 x1 (ix2 u c) = colSumOf (sc x0 x1 c) := by
  unfold wL8 wL7 wL5
  simp only [lStep_apply, lInit_apply, wE_apply]
  exact sum_chunks8 (exOf (sc x0 x1 c))

theorem wINV_apply (x0 : Vec Ideal S256x1024 .f32) (x1 : Vec Ideal S4096x1024 .f32) (u : Fin 1) (c : Fin 256) :
    wINV x0 x1 (ix2 u c) = Ideal.div 1 (colSumOf (sc x0 x1 c)) := by
  unfold wINV
  rw [divf_apply, ones_apply, wL8_apply]

theorem wP_apply (x0 : Vec Ideal S256x1024 .f32) (x1 : Vec Ideal S4096x1024 .f32) (j : Fin 8) (r : Fin 512) (c : Fin 256) :
    wP x0 x1 j (ix2 r c) = attnRecip (sc x0 x1 c) (ck j r) := by
  unfold wP
  rw [pStep_apply, wE_apply, wINV_apply]
  rfl

theorem vRun_apply (x2 : Vec Ideal S4096x1024 .bf16) (j : Fin 8) (r : Fin 512) (e : Fin 1024) :
    vRun x2 j (ix2 r e) = x2 (ix2 (ck j r) e) := rfl

theorem wA13_apply (x0 : Vec Ideal S256x1024 .f32) (x1 : Vec Ideal S4096x1024 .f32) (x2 : Vec Ideal S4096x1024 .bf16) (c : Fin 256) (e : Fin 1024) :
    wA13 x0 x1 x2 (ix2 c e) = ∑ k : Fin 4096, attnRecip (sc x0 x1 c) k * x2 (ix2 k e) := by
  unfold wA13 wA12 wA10
  simp only [aStep_apply, aInit_apply, wP_apply, vRun_apply]
  exact sum_chunks8 (fun k => attnRecip (sc x0 x1 c) k * x2 (ix2 k e))

end Cert.KernelIdeal.Body

end
-- ==== Proof.Blocks.lean ====
/-
  What the body leaves in its two output blocks, read at an index. The attention block (4096 keys × the block's
  256 queries) is written three times over in runs of 512 rows; the last eight stores, one per run, each hold that
  run's rows of ONE function of the block index — the softmax weight of key k for query c, taken with the reciprocal
  of the column sum — and between them cover every row, so the block ends holding that function whatever was stored
  before. The weighted-values block (the block's 256 queries × 1024 features) is stored once, whole: the running
  product after the eight runs, the sum over all 4096 keys of weight times value.
-/
import proofs.«168421_j22316650070307_2_alg».proof.Proof.Gen.KernelIdeal.Value
import proofs.«168421_j22316650070307_2_alg».proof.Proof.Spec
import proofs.«168421_j22316650070307_2_alg».proof.Proof.Steps
import proofs.«168421_j22316650070307_2_alg».proof.Proof.Chunks
import proofs.«168421_j22316650070307_2_alg».proof.Proof.Words
import proofs.«168421_j22316650070307_2_alg».proof.Proof.Values
import Idealize.ShloMosaic.Lib.Pipeline.Value
import Idealize.ShloMosaic.Lib.Pipeline.CanonAppend
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx

namespace Cert.KernelIdeal.Body

open Cert.KernelIdeal Cert.KernelIdeal.Gen Cert.Attn

/-- The attention block as one function of its index (key, query). -/
def attnBlock (x0 : Vec Ideal S256x1024 .f32) (x1 : Vec Ideal S4096x1024 .f32) : S4096x256.Idx → EReal := fun y => attnRecip (sc x0 x1 (y 1)) (y 0)

/-- Run `j`'s weights are rows 512·j … of that function. -/
theorem piece_ok (x0 : Vec Ideal S256x1024 .f32) (x1 : Vec Ideal S4096x1024 .f32) (j : Fin 8) (o : Nat) (ho : o = j.val * 512) (pf) (x : S512x256.Idx) :
    wP x0 x1 j x = attnBlock x0 x1 ((R o pf).emb x) := by
  obtain ⟨r, cq, rfl⟩ : ∃ (r : Fin 512) (cq : Fin 256), x = ix2 r cq := ⟨x 0, x 1, eq_ix2 x⟩
  rw [wP_apply]
  unfold attnBlock
  have h0 : ((R o pf).emb (ix2 r cq)) 0 = ck j r := Fin.ext (by
    show o + 1 * r.val = j.val * 512 + r.val
    omega)
  have h1 : ((R o pf).emb (ix2 r cq)) 1 = cq := Fin.ext (by
    show 0 + 1 * cq.val = cq.val
    omega)
  rw [h0, h1]

/-- Row `k` lies in rows [o, o+512) when it does. -/
theorem mem_R (o : Nat) (pf) (k : Fin 4096) (cq : Fin 256) (h : o ≤ k.val ∧ k.val < o + 512) :
    ix2 k cq ∈ (R o pf).set :=
  Rect.mem_set_unit.mpr (Fin.forall_fin_two.mpr ⟨⟨h.1, h.2⟩, ⟨Nat.zero_le _, (by show cq.val < 0 + 256; omega)⟩⟩)

/-- The last eight stores: each run's weights in its rows. -/
abbrev L8 (x0 : Vec Ideal S256x1024 .f32) (x1 : Vec Ideal S4096x1024 .f32) : List (View.Piece (Elt Ideal) S4096x256 .f32) :=
  [pc 3584 (inbR 3584 (by omega)) (wP x0 x1 7), pc 3072 (inbR 3072 (by omega)) (wP x0 x1 6), pc 2560 (inbR 2560 (by omega)) (wP x0 x1 5), pc 2048 (inbR 2048 (by omega)) (wP x0 x1 4), pc 1536 (inbR 1536 (by omega)) (wP x0 x1 3), pc 1024 (inbR 1024 (by omega)) (wP x0 x1 2), pc 512 (inbR 512 (by omega)) (wP x0 x1 1), pc 0 (inbR 0 (by omega)) (wP x0 x1 0)]

section
variable (c : Dev nD) (i : grid0.Coords) (arg1 : Memref sig .tc .vmem S256x1024 .f32) (harg1 : arg1.IsWhole)
  (arg2 : Memref sig .tc .vmem S4096x1024 .f32) (harg2 : arg2.IsWhole)
  (arg3 : Memref sig .tc .vmem S4096x1024 .bf16) (harg3 : arg3.IsWhole)
  (arg4 : Memref sig .tc .vmem S256x1024 .f32) (harg4 : arg4.IsWhole)
  (arg5 : Memref sig .tc .vmem S4096x256 .f32) (harg5 : arg5.IsWhole)
  (x0 : Vec Ideal S256x1024 .f32) (x1 : Vec Ideal S4096x1024 .f32) (x2 : Vec Ideal S4096x1024 .bf16)

/-- THE ATTENTION BLOCK the body leaves: at (k, c) the softmax weight of key `k` for the block's query `c`. -/
theorem out4_apply (k : Fin 4096) (cq : Fin 256) :
    out0_A_4 (F := Ideal) c i arg1 harg1 arg2 harg2 arg3 harg3 arg4 harg4 arg5 harg5 x0 x1 x2 (ix2 k cq) = attnRecip (sc x0 x1 cq) k := by
  unfold out0_A_4
  rw [View.read_writes_eq_canon _ _ _ (cover0_A_4 c i arg1 harg1 arg2 harg2 arg3 harg3 arg4 harg4 arg5 harg5 x0 x1 x2)]
  unfold kernelRun0_A
  dsimp only
  simp only [w_r9, w_v298, w_H4_23]
  show View.canon (L8 x0 x1 ++ H16 x0 x1) (ix2 k cq) = attnBlock x0 x1 (ix2 k cq)
  refine View.canon_append_of_pieces (attnBlock x0 x1) (H16 x0 x1) (L8 x0 x1) ?_ (ix2 k cq) ?_
  · intro p hp x
    simp only [List.mem_cons, List.not_mem_nil, or_false] at hp
    rcases hp with rfl | rfl | rfl | rfl | rfl | rfl | rfl | rfl
    · exact piece_ok x0 x1 7 3584 rfl (inbR 3584 (by omega)) x
    · exact piece_ok x0 x1 6 3072 rfl (inbR 3072 (by omega)) x
    · exact piece_ok x0 x1 5 2560 rfl (inbR 2560 (by omega)) x
    · exact piece_ok x0 x1 4 2048 rfl (inbR 2048 (by omega)) x
    · exact piece_ok x0 x1 3 1536 rfl (inbR 1536 (by omega)) x
    · exact piece_ok x0 x1 2 1024 rfl (inbR 1024 (by omega)) x
    · exact piece_ok x0 x1 1 512 rfl (inbR 512 (by omega)) x
    · exact piece_ok x0 x1 0 0 rfl (inbR 0 (by omega)) x
  · have hk := k.isLt
    rcases (show (0 ≤ k.val ∧ k.val < 0 + 512) ∨ (512 ≤ k.val ∧ k.val < 512 + 512) ∨ (1024 ≤ k.val ∧ k.val < 1024 + 512) ∨ (1536 ≤ k.val ∧ k.val < 1536 + 512) ∨ (2048 ≤ k.val ∧ k.val < 2048 + 512) ∨ (2560 ≤ k.val ∧ k.val < 2560 + 512) ∨ (3072 ≤ k.val ∧ k.val < 3072 + 512) ∨ (3584 ≤ k.val ∧ k.val < 3584 + 512) by omega) with h | h | h | h | h | h | h | h
    · exact ⟨pc 0 (inbR 0 (by omega)) (wP x0 x1 0), (List.Mem.tail _ (List.Mem.tail _ (List.Mem.tail _ (List.Mem.tail _ (List.Mem.tail _ (List.Mem.tail _ (List.Mem.tail _ (List.Mem.head _)))))))), mem_R 0 (inbR 0 (by omega)) k cq h⟩
    · exact ⟨pc 512 (inbR 512 (by omega)) (wP x0 x1 1), (List.Mem.tail _ (List.Mem.tail _ (List.Mem.tail _ (List.Mem.tail _ (List.Mem.tail _ (List.Mem.tail _ (List.Mem.head _))))))), mem_R 512 (inbR 512 (by omega)) k cq h⟩
    · exact ⟨pc 1024 (inbR 1024 (by omega)) (wP x0 x1 2), (List.Mem.tail _ (List.Mem.tail _ (List.Mem.tail _ (List.Mem.tail _ (List.Mem.tail _ (List.Mem.head _)))))), mem_R 1024 (inbR 1024 (by omega)) k cq h⟩
    · exact ⟨pc 1536 (inbR 1536 (by omega)) (wP x0 x1 3), (List.Mem.tail _ (List.Mem.tail _ (List.Mem.tail _ (List.Mem.tail _ (List.Mem.head _))))), mem_R 1536 (inbR 1536 (by omega)) k cq h⟩
    · exact ⟨pc 2048 (inbR 2048 (by omega)) (wP x0 x1 4), (List.Mem.tail _ (List.Mem.tail _ (List.Mem.tail _ (List.Mem.head _)))), mem_R 2048 (inbR 2048 (by omega)) k cq h⟩
    · exact ⟨pc 2560 (inbR 2560 (by omega)) (wP x0 x1 5), (List.Mem.tail _ (List.Mem.tail _ (List.Mem.head _))), mem_R 2560 (inbR 2560 (by omega)) k cq h⟩
    · exact ⟨pc 3072 (inbR 3072 (by omega)) (wP x0 x1 6), (List.Mem.tail _ (List.Mem.head _)), mem_R 3072 (inbR 3072 (by omega)) k cq h⟩
    · exact ⟨pc 3584 (inbR 3584 (by omega)) (wP x0 x1 7), (List.Mem.head _), mem_R 3584 (inbR 3584 (by omega)) k cq h⟩

/-- THE WEIGHTED-VALUES BLOCK the body leaves: at (c, e) the sum over all keys of weight times value. -/
theorem out3_apply (cq : Fin 256) (e : Fin 1024) :
    out0_A_3 (F := Ideal) c i arg1 harg1 arg2 harg2 arg3 harg3 arg4 harg4 arg5 harg5 x0 x1 x2 (ix2 cq e) = ∑ k : Fin 4096, attnRecip (sc x0 x1 cq) k * x2 (ix2 k e) := by
  unfold out0_A_3
  rw [View.read_writes_eq_canon _ _ _ (cover0_A_3 c i arg1 harg1 arg2 harg2 arg3 harg3 arg4 harg4 arg5 harg5 x0 x1 x2)]
  unfold kernelRun0_A
  dsimp only
  rw [View.canon_unit_zero hz, w_r13, wA13_apply]

end

end Cert.KernelIdeal.Body

end
-- ==== Proof.Final.lean ====
/-
  From blocks to arrays. The grid has sixteen points; point t stages queries 256·t … 256·t+255 (all features), all
  the keys, all the values, and writes back rows 256·t … of the weighted values and columns 256·t … of the attention
  weights. So block t of each result is block t of ONE function of the whole argument arrays — the score of key k
  against query q is the same sum whether q is read from the array or from its block — the sixteen blocks tile
  each result, and each result array ends as that function. With real inputs the column sums are not zero, and the
  reciprocal form of the weights is the quotient: the specification.
-/
import proofs.«168421_j22316650070307_2_alg».proof.Proof.Gen.KernelIdeal.Value
import proofs.«168421_j22316650070307_2_alg».proof.Proof.Spec
import proofs.«168421_j22316650070307_2_alg».proof.Proof.Steps
import proofs.«168421_j22316650070307_2_alg».proof.Proof.Chunks
import proofs.«168421_j22316650070307_2_alg».proof.Proof.Words
import proofs.«168421_j22316650070307_2_alg».proof.Proof.Values
import proofs.«168421_j22316650070307_2_alg».proof.Proof.Blocks
import Idealize.ShloMosaic.Lib.StableHlo.Run
import Idealize.ShloMosaic.Lib.Pipeline.Value
import Idealize.ShloMosaic.Lib.Pipeline.CanonAppend
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx

namespace Cert.KernelIdeal.Final

open Cert.KernelIdeal Cert.KernelIdeal.Gen Cert.Attn

open Cert.KernelIdeal.Value Cert.KernelIdeal.Body
open Idealize.ShloMosaic.Pipeline (Dat)

variable (m : (ℓ : Loc nD τ sig) → Buf (Elt Ideal) ℓ) (ρ : Dev nD → PrngReg)

/-! ## The two results over whole arrays, with the reciprocal -/

/-- The attention weights, each taken as exponential times the reciprocal of its column's sum. -/
def attnK (Q K : S4096x1024.Idx → EReal) : S4096x4096.Idx → EReal :=
  fun j => attnRecip (fun k => score Q K k (j 1)) (j 0)
/-- The weighted values over those weights. -/
def weightedK (Q K V : S4096x1024.Idx → EReal) : S4096x1024.Idx → EReal :=
  fun j => ∑ k : Fin 4096, attnRecip (fun k' => score Q K k' (j 0)) k * V (ix2 k (j 1))

/-- With real queries and keys the reciprocal form is the specification's quotient. -/
theorem attnK_eq (Q K : S4096x1024.Idx → EReal) (hQ : ∀ i, ∃ r : ℝ, Q i = (r : EReal)) (hK : ∀ i, ∃ r : ℝ, K i = (r : EReal)) :
    attnK Q K = attn Q K := by
  funext j
  unfold attnK attn
  exact attnRecip_eq _ (colSumOf_ne_zero _ fun k => score_real Q K hQ hK k (j 1)) (j 0)

theorem weightedK_eq (Q K V : S4096x1024.Idx → EReal) (hQ : ∀ i, ∃ r : ℝ, Q i = (r : EReal)) (hK : ∀ i, ∃ r : ℝ, K i = (r : EReal)) :
    weightedK Q K V = weighted Q K V := by
  funext j
  unfold weightedK weighted
  refine Finset.sum_congr rfl fun k _ => ?_
  refine congrArg (· * V (ix2 k (j 1))) ?_
  exact attnRecip_eq _ (colSumOf_ne_zero _ fun k' => score_real Q K hQ hK k' (j 0)) k

/-! ## The index maps, decided over the sixteen points -/

theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = t.val :=
  (by decide +kernel : ∀ t : Fin grid0.N, _)

theorem idx_onto3 : ∀ q : Fin 16, ∃ t : Fin cfg0.N, win0_3.index t = ![q.val, 0] :=
  (by decide +kernel : ∀ q : Fin 16, ∃ t : Fin grid0.N, win0_3.index t = ![q.val, 0])
theorem idx_onto4 : ∀ q : Fin 16, ∃ t : Fin cfg0.N, win0_4.index t = ![0, q.val] :=
  (by decide +kernel : ∀ q : Fin 16, ∃ t : Fin grid0.N, win0_4.index t = ![0, q.val])

theorem lt16 (t : Fin cfg0.N) : t.val < 16 := lt_of_lt_of_eq t.isLt N_0

/-! ## The input blocks, read where the arrays hold them -/

/-- The scores of the block's query `cq` at point `t` are the scores of query 256·t + cq of the array. -/
theorem sc_iblk (c : Dev nD) (t : Fin cfg0.N) (cq : Fin 256) (k' q : Fin 4096) (hq : q.val = t.val * 256 + cq.val) :
    sc (iblk m c 0 t) (iblk m c 1 t) cq k' = score (V m c main_arg0) (V m c main_arg1) k' q := by
  obtain ⟨e00, e01, e10, e11, -⟩ := idx_facts t
  unfold sc score
  refine Finset.sum_congr rfl fun d _ => ?_
  have hK : iblk m c 1 t (ix2 k' d) = V m c main_arg1 (ix2 k' d) := by
    show V m c main_arg1 (((cfg0.win 1).blk t).view.emb (ix2 k' d)) = _
    refine congrArg (V m c main_arg1) (funext fun a => Fin.ext ?_)
    match a with
    | ⟨0, _⟩ => show win0_1.index t (0 : Fin 2) * 4096 + 1 * k'.val = k'.val; omega
    | ⟨1, _⟩ => show win0_1.index t (1 : Fin 2) * 1024 + 1 * d.val = d.val; omega
  have hQ : iblk m c 0 t (ix2 cq d) = V m c main_arg0 (ix2 q d) := by
    show V m c main_arg0 (((cfg0.win 0).blk t).view.emb (ix2 cq d)) = _
    refine congrArg (V m c main_arg0) (funext fun a => Fin.ext ?_)
    match a with
    | ⟨0, _⟩ => show win0_0.index t (0 : Fin 2) * 256 + 1 * cq.val = q.val; omega
    | ⟨1, _⟩ => show win0_0.index t (1 : Fin 2) * 1024 + 1 * d.val = d.val; omega
  rw [hK, hQ]

/-- The values array the region finds: the host's change of format of the third argument, the identity here. -/
theorem V_main_v0 (c : Dev nD) :
    (V m c main_v0 : S4096x1024.Idx → EReal) = fun i => m ((c : Thread nD τ).loc main_arg2) i := by
  dsimp only [Gen.V, Gen.hostOps0]
  after_results
  rfl

/-- The values block at any point is the whole values array. -/
theorem v_iblk (c : Dev nD) (t : Fin cfg0.N) (k : Fin 4096) (e : Fin 1024) :
    iblk m c 2 t (ix2 k e) = m ((c : Thread nD τ).loc main_arg2) (ix2 k e) := by
  obtain ⟨-, -, -, -, e20, e21, -⟩ := idx_facts t
  have h : iblk m c 2 t (ix2 k e) = V m c main_v0 (ix2 k e) := by
    show V m c main_v0 (((cfg0.win 2).blk t).view.emb (ix2 k e)) = _
    refine congrArg (V m c main_v0) (funext fun a => Fin.ext ?_)
    match a with
    | ⟨0, _⟩ => show win0_2.index t (0 : Fin 2) * 4096 + 1 * k.val = k.val; omega
    | ⟨1, _⟩ => show win0_2.index t (1 : Fin 2) * 1024 + 1 * e.val = e.val; omega
  rw [h]
  exact congrFun (V_main_v0 m c) (ix2 k e)

/-! ## What each point writes back -/

/-- Point `t` writes back columns 256·t … of the attention weights of the whole arrays. -/
theorem flushed4_eq (c : Dev nD) (t : Fin cfg0.N) :
    (dats m 0 c).flushed 4 t = ((cfg0.win 4).blk t).view.read (Elt Ideal) (attnK (V m c main_arg0) (V m c main_arg1)) := by
  rw [flushed4_A]
  obtain ⟨-, -, -, -, -, -, -, -, e40, e41⟩ := idx_facts t
  have ht := lt16 t
  funext j
  obtain ⟨k, cq, rfl⟩ : ∃ (k : Fin 4096) (cq : Fin 256), j = ix2 k cq := ⟨j 0, j 1, eq_ix2 j⟩
  show out0_A_4 (F := Ideal) c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (ix2 k cq)
      = attnK (V m c main_arg0) (V m c main_arg1) (((cfg0.win 4).blk t).view.emb (ix2 k cq))
  refine (out4_apply c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) k cq).trans ?_
  have h0 : (((cfg0.win 4).blk t).view.emb (ix2 k cq)) 0 = k := Fin.ext (by
    show win0_4.index t (0 : Fin 2) * 4096 + 1 * k.val = k.val
    omega)
  have h1 : (((cfg0.win 4).blk t).view.emb (ix2 k cq)) 1 = (⟨t.val * 256 + cq.val, by omega⟩ : Fin 4096) := Fin.ext (by
    show win0_4.index t (1 : Fin 2) * 256 + 1 * cq.val = t.val * 256 + cq.val
    omega)
  unfold attnK
  rw [h0, h1]
  exact congrArg (fun s => attnRecip s k) (funext fun k' => sc_iblk m c t cq k' _ rfl)

/-- Point `t` writes back rows 256·t … of the weighted values of the whole arrays. -/
theorem flushed3_eq (c : Dev nD) (t : Fin cfg0.N) :
    (dats m 0 c).flushed 3 t = ((cfg0.win 3).blk t).view.read (Elt Ideal)
      (weightedK (V m c main_arg0) (V m c main_arg1) (m ((c : Thread nD τ).loc main_arg2))) := by
  rw [flushed3_A]
  obtain ⟨-, -, -, -, -, -, e30, e31, -⟩ := idx_facts t
  have ht := lt16 t
  funext j
  obtain ⟨cq, e, rfl⟩ : ∃ (cq : Fin 256) (e : Fin 1024), j = ix2 cq e := ⟨j 0, j 1, eq_ix2 j⟩
  show out0_A_3 (F := Ideal) c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (ix2 cq e)
      = weightedK (V m c main_arg0) (V m c main_arg1) (m ((c : Thread nD τ).loc main_arg2)) (((cfg0.win 3).blk t).view.emb (ix2 cq e))
  refine (out3_apply c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) cq e).trans ?_
  have h0 : (((cfg0.win 3).blk t).view.emb (ix2 cq e)) 0 = (⟨t.val * 256 + cq.val, by omega⟩ : Fin 4096) := Fin.ext (by
    show win0_3.index t (0 : Fin 2) * 256 + 1 * cq.val = t.val * 256 + cq.val
    omega)
  have h1 : (((cfg0.win 3).blk t).view.emb (ix2 cq e)) 1 = e := Fin.ext (by
    show win0_3.index t (1 : Fin 2) * 1024 + 1 * e.val = e.val
    omega)
  unfold weightedK
  rw [h0, h1]
  refine Finset.sum_congr rfl fun k _ => ?_
  rw [v_iblk m c t k e, show sc (iblk m c 0 t) (iblk m c 1 t) cq = fun k' => score (V m c main_arg0) (V m c main_arg1) k' ⟨t.val * 256 + cq.val, by omega⟩ from
    funext fun k' => sc_iblk m c t cq k' _ rfl]

/-! ## The blocks tile each result -/

theorem mem_blk4 (t : Fin cfg0.N) (i : S4096x4096.Idx) :
    i ∈ ((cfg0.win 4).blk t).view.set ↔ ∀ a : Fin 2, win0_4.index t a * S4096x256.size a ≤ (i a).val ∧ (i a).val < win0_4.index t a * S4096x256.size a + S4096x256.size a := by
  show i ∈ ((View.whole main_v1_1).slice (win0_4.rect t)).set ↔ _
  rw [View.set_slice_whole, Rect.mem_set_unit]
  exact Iff.rfl

theorem mem_blk3 (t : Fin cfg0.N) (i : S4096x1024.Idx) :
    i ∈ ((cfg0.win 3).blk t).view.set ↔ ∀ a : Fin 2, win0_3.index t a * S256x1024.size a ≤ (i a).val ∧ (i a).val < win0_3.index t a * S256x1024.size a + S256x1024.size a := by
  show i ∈ ((View.whole main_v1_0).slice (win0_3.rect t)).set ↔ _
  rw [View.set_slice_whole, Rect.mem_set_unit]
  exact Iff.rfl

/-- Column q of the attention weights lies in the block of point q / 256. -/
theorem cover4 (i : S4096x4096.Idx) : ∃ t : Fin cfg0.N, (cfg0.win 4).flush t = true ∧ i ∈ ((cfg0.win 4).blk t).view.set := by
  have hi0 : (i 0).val < 4096 := (i 0).isLt
  have hi1 : (i 1).val < 4096 := (i 1).isLt
  obtain ⟨t, ht⟩ := idx_onto4 ⟨(i 1).val / 256, by omega⟩
  have q0 : win0_4.index t (0 : Fin 2) = 0 := congrFun ht 0
  have q1 : win0_4.index t (1 : Fin 2) = (i 1).val / 256 := congrFun ht 1
  refine ⟨t, flush0_4 t, ?_⟩
  rw [mem_blk4]
  intro a
  match a with
  | ⟨0, _⟩ => show win0_4.index t (0 : Fin 2) * 4096 ≤ (i 0).val ∧ (i 0).val < win0_4.index t (0 : Fin 2) * 4096 + 4096; omega
  | ⟨1, _⟩ => show win0_4.index t (1 : Fin 2) * 256 ≤ (i 1).val ∧ (i 1).val < win0_4.index t (1 : Fin 2) * 256 + 256; omega

/-- Row q of the weighted values lies in the block of point q / 256. -/
theorem cover3 (i : S4096x1024.Idx) : ∃ t : Fin cfg0.N, (cfg0.win 3).flush t = true ∧ i ∈ ((cfg0.win 3).blk t).view.set := by
  have hi0 : (i 0).val < 4096 := (i 0).isLt
  have hi1 : (i 1).val < 1024 := (i 1).isLt
  obtain ⟨t, ht⟩ := idx_onto3 ⟨(i 0).val / 256, by omega⟩
  have q0 : win0_3.index t (0 : Fin 2) = (i 0).val / 256 := congrFun ht 0
  have q1 : win0_3.index t (1 : Fin 2) = 0 := congrFun ht 1
  refine ⟨t, flush0_3 t, ?_⟩
  rw [mem_blk3]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 1024 ≤ (i 1).val ∧ (i 1).val < win0_3.index t (1 : Fin 2) * 1024 + 1024; omega

/-! ## The result arrays, and the run -/

theorem final4 (c : Dev nD) :
    (dats m 0 c).arrAt 4 cfg0.N = attnK (m ((c : Thread nD τ).loc main_arg0)) (m ((c : Thread nD τ).loc main_arg1)) :=
  ((dats m 0 c).arrAt_eq_of_cover 4 (attnK (V m c main_arg0) (V m c main_arg1)) (fun t _ => flushed4_eq m c t) cover4).trans
    (by rw [V_main_arg0, V_main_arg1])

theorem final3 (c : Dev nD) :
    (dats m 0 c).arrAt 3 cfg0.N = weightedK (m ((c : Thread nD τ).loc main_arg0)) (m ((c : Thread nD τ).loc main_arg1)) (m ((c : Thread nD τ).loc main_arg2)) :=
  ((dats m 0 c).arrAt_eq_of_cover 3 (weightedK (V m c main_arg0) (V m c main_arg1) (m ((c : Thread nD τ).loc main_arg2)))
    (fun t _ => flushed3_eq m c t) cover3).trans (by rw [V_main_arg0, V_main_arg1])

/-- The kernel's run: each result array at its function of the argument arrays, the arguments unchanged. -/
theorem run : θ_run defs (onTc (τ := τ) (main (F := Ideal))) ⟨m, fun _ => 0, ρ⟩ fun r => ∀ c : Dev nD,
      r.2.mem ((c : Thread nD τ).loc main_v1_0) = weightedK (m ((c : Thread nD τ).loc main_arg0)) (m ((c : Thread nD τ).loc main_arg1)) (m ((c : Thread nD τ).loc main_arg2))
      ∧ r.2.mem ((c : Thread nD τ).loc main_v1_1) = attnK (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(post3 m r h c).trans (final3 m c),
      (post4 m r h c).trans (final4 m c),
      kept_main_arg0 m r h c,
      kept_main_arg1 m r h c,
      kept_main_arg2 m r h c⟩)
    (run_main m ρ)

/-- The same run when the queries and the keys are real numbers: the results are the specification's. -/
theorem run_spec (hreal : ∀ c : Dev nD, (∀ i, ∃ r : ℝ, (m ((c : Thread nD τ).loc main_arg0)) i = (r : EReal)) ∧ (∀ i, ∃ r : ℝ, (m ((c : Thread nD τ).loc main_arg1)) i = (r : EReal))) :
    θ_run defs (onTc (τ := τ) (main (F := Ideal))) ⟨m, fun _ => 0, ρ⟩ fun r => ∀ c : Dev nD,
      r.2.mem ((c : Thread nD τ).loc main_v1_0) = weighted (m ((c : Thread nD τ).loc main_arg0)) (m ((c : Thread nD τ).loc main_arg1)) (m ((c : Thread nD τ).loc main_arg2))
      ∧ r.2.mem ((c : Thread nD τ).loc main_v1_1) = attn (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (weightedK_eq _ _ _ (hreal c).1 (hreal c).2),
      (h c).2.1.trans (attnK_eq _ _ (hreal c).1 (hreal c).2),
      (h c).2.2⟩)
    (run m ρ)

end Cert.KernelIdeal.Final

end
-- ==== Proof.RefValue.lean ====
/-
  The reference computes the specification. Stage by stage at an index: the first product is the score of key k
  against query q; the column maximum (a reduce from −∞ over the keys, joined once more with −∞) is the largest
  score of the column; the exponential of score less maximum is the column's exponential; the reduce-add from zero
  over the keys is the column's sum; the quotient is the softmax weight; and the second product, contracted over the
  keys, is the weights against the values.
-/
import proofs.«168421_j22316650070307_2_alg».proof.Proof.Gen.ReferenceIdeal.Read
import proofs.«168421_j22316650070307_2_alg».proof.Proof.Spec
import Idealize.ShloMosaic.Lib.ValueIdx
import Idealize.ShloMosaic.PureOps.Ideal.Laws

set_option maxRecDepth 16384

noncomputable section

open Idealize.ShloMosaic Idealize.ShloMosaic.ValueIdx

namespace Cert.ReferenceIdeal.RefValue

open Cert.ReferenceIdeal Cert.ReferenceIdeal.Read Cert.Attn

theorem ofBits_neg_inf : Ideal.ofBits .f32 0xFF800000#32 = (⊥ : EReal) := by simp [Ideal.ofBits, Ideal.ieee]

/-- The reduced index `q` with row `k` put back is (k, q). -/
theorem lift_rows (h : S4096x4096.Reduces [0] S4096) (q : Fin 4096) (k : Fin (S4096x4096.size 0)) :
    h.lift (ix1 q) k = ix2 (⟨k.val, k.isLt⟩ : Fin 4096) q := by
  funext a; apply Fin.ext
  fin_cases a <;> rfl

/-- The first product at (k, q): the score of key `k` against query `q`. -/
theorem v0_apply (Q K : FVec Ideal S4096x1024 .f32) (k q : Fin 4096) :
    val_main_v0 (F := Ideal) Q K (ix2 k q) = score Q K k q := by
  rw [val_main_v0_apply]
  unfold score
  refine Finset.sum_congr rfl fun d _ => ?_
  have el : lidx_main_v0 (ix2 k q) d = ix2 k d := funext fun a => Fin.ext (by match a with | ⟨0, _⟩ => rfl | ⟨1, _⟩ => rfl)
  have er : ridx_main_v0 (ix2 k q) d = ix2 q d := funext fun a => Fin.ext (by match a with | ⟨0, _⟩ => rfl | ⟨1, _⟩ => rfl)
  rw [el, er]

/-- The host's maximum-reduce from −∞ over the keys, at query `q`: the largest score of the column. -/
theorem v1_apply (Q K : FVec Ideal S4096x1024 .f32) (q : Fin 4096) :
    val_main_v1 (F := Ideal) Q K (ix1 q) = colMaxOf (fun k => score Q K k q) := by
  unfold val_main_v1
  have h : S4096x4096.Reduces [0] S4096 := by decide
  refine (Host.reduce_eq_fold_single (FloatOps.maximumf (F := Ideal) (φ := .f32)) (val_main_v0 (F := Ideal) Q K) (val_main_cst (F := Ideal))
    Facts₀.reducesTo_S4096x4096_S4096_d0 h Facts₀.h_S_ (ix1 q)).trans ?_
  refine (fold_max_eq_sup Finset.univ _ _).trans ?_
  show Ideal.ofBits .f32 0xFF800000#32 ⊔ _ = _
  rw [ofBits_neg_inf, bot_sup_eq]
  unfold colMaxOf
  exact Finset.sup_congr rfl fun k _ => (congrArg (val_main_v0 (F := Ideal) Q K) (lift_rows _ q k)).trans (v0_apply Q K _ q)

/-- Joined once more with −∞: still the column's maximum. -/
theorem v3_apply (Q K : FVec Ideal S4096x1024 .f32) (q : Fin 4096) :
    val_main_v3 (F := Ideal) Q K (ix1 q) = colMaxOf (fun k => score Q K k q) := by
  rw [val_main_v3_apply, v1_apply]
  show max (Ideal.ofBits .f32 0xFF800000#32) _ = _
  rw [ofBits_neg_inf]
  exact bot_sup_eq _

/-- The exponential of score less maximum at (k, q). -/
theorem v7_apply (Q K : FVec Ideal S4096x1024 .f32) (k q : Fin 4096) :
    val_main_v7 (F := Ideal) Q K (ix2 k q) = exOf (fun k' => score Q K k' q) k := by
  rw [val_main_v7_apply, val_main_v6_apply, val_main_v5_apply, val_main_v4_apply, v0_apply]
  have e5 : idx_main_v4 (idx_main_v5 (ix2 k q)) = ix1 q := funext fun a => Fin.ext (by match a with | ⟨0, _⟩ => rfl)
  rw [e5, v3_apply]
  rfl

/-- The host's add-reduce from zero over the keys, at query `q`: the column's sum of exponentials. -/
theorem v8_apply (Q K : FVec Ideal S4096x1024 .f32) (q : Fin 4096) :
    val_main_v8 (F := Ideal) Q K (ix1 q) = colSumOf (fun k => score Q K k q) := by
  rw [val_main_v8_apply]
  show Ideal.ofBits .f32 0x00000000#32 + _ = _
  rw [Ideal.ofBits_zero_f32, zero_add]
  unfold colSumOf
  refine Finset.sum_congr rfl fun k _ => ?_
  have e8 : idx_main_v8 (ix1 q) k = ix2 k q := funext fun a => Fin.ext (by match a with | ⟨0, _⟩ => rfl | ⟨1, _⟩ => rfl)
  rw [e8, v7_apply]

/-- The quotient at (k, q): the softmax weight. -/
theorem v11_apply (Q K : FVec Ideal S4096x1024 .f32) (k q : Fin 4096) :
    val_main_v11 (F := Ideal) Q K (ix2 k q) = attnOf (fun k' => score Q K k' q) k := by
  rw [val_main_v11_apply, val_main_v10_apply, val_main_v9_apply, v7_apply]
  have e10 : idx_main_v9 (idx_main_v10 (ix2 k q)) = ix1 q := funext fun a => Fin.ext (by match a with | ⟨0, _⟩ => rfl)
  rw [e10, v8_apply]
  rfl

/-- THE REFERENCE'S ATTENTION WEIGHTS are the specification's. -/
theorem v11_eq (Q K : FVec Ideal S4096x1024 .f32) : val_main_v11 (F := Ideal) Q K = attn Q K := by
  funext j
  obtain ⟨k, q, rfl⟩ : ∃ (k q : Fin 4096), j = ix2 k q := ⟨j 0, j 1, eq_ix2 j⟩
  exact v11_apply Q K k q

/-- THE REFERENCE'S WEIGHTED VALUES are the specification's. -/
theorem v12_eq (Q K V : FVec Ideal S4096x1024 .f32) : val_main_v12 (F := Ideal) Q K V = weighted Q K V := by
  funext j
  obtain ⟨q, e, rfl⟩ : ∃ (q : Fin 4096) (e : Fin 1024), j = ix2 q e := ⟨j 0, j 1, eq_ix2 j⟩
  rw [val_main_v12_apply]
  unfold weighted
  refine Finset.sum_congr rfl fun k _ => ?_
  have el : lidx_main_v12 (ix2 q e) k = ix2 k q := funext fun a => Fin.ext (by match a with | ⟨0, _⟩ => rfl | ⟨1, _⟩ => rfl)
  have er : ridx_main_v12 (ix2 q e) k = ix2 k e := funext fun a => Fin.ext (by match a with | ⟨0, _⟩ => rfl | ⟨1, _⟩ => rfl)
  rw [el, er, v11_apply]
  rfl

end Cert.ReferenceIdeal.RefValue

end
-- ==== Proof.Finite.lean ====
/-
  What the precondition says. It holds when every entry of each of the three argument arrays has absolute value
  below +∞; on the extended reals that is: every entry is a real number (−∞ and +∞ both have absolute value +∞).
-/
import proofs.«168421_j22316650070307_2_alg».proof.Pre_finite_inputs
import proofs.«168421_j22316650070307_2_alg».proof.Proof.Gen.Pre_finite_inputs
import Idealize.ShloMosaic.Lib.ReduceAll
import Idealize.ShloMosaic.Lib.ValueIdx
import Idealize.ShloMosaic.PureOps.Ideal.Laws

noncomputable section

open Idealize.ShloMosaic

namespace Cert.Attn.Finite

open Cert.Pre_finite_inputs

instance : Subsingleton Cert.Pre_finite_inputs.S_.Idx := ⟨fun a b => funext fun d => d.elim0⟩

theorem ofBits_inf : Ideal.ofBits .f32 0x7F800000#32 = (⊤ : EReal) := by simp [Ideal.ofBits, Ideal.ieee]

/-- An extended real whose absolute value is below +∞ is a real number. -/
theorem real_of_abs_lt_top (x : EReal) (h : max x (-x) < ⊤) : ∃ r : ℝ, x = (r : EReal) := by
  induction x using EReal.rec with
  | bot => exact absurd h (by simp)
  | top => exact absurd h (by simp)
  | coe r => exact ⟨r, rfl⟩

/-- One entry's comparison |x| < +∞ coming out true says the entry is real. -/
theorem real_of_cmp [Facts] (X : FVec Ideal S4096x1024 .f32) (i : S4096x1024.Idx)
    (e : cmpf .olt (Host.absf X) (broadcastInDim S4096x1024 ![] Facts.bcast_S_S4096x1024 (constant (F := Ideal) S_ .f32 0x7F800000#32)) i = 1#1) :
    ∃ r : ℝ, X i = (r : EReal) := by
  refine real_of_abs_lt_top (X i) ?_
  by_contra hn
  have h0 : cmpf .olt (Host.absf X) (broadcastInDim S4096x1024 ![] Facts.bcast_S_S4096x1024 (constant (F := Ideal) S_ .f32 0x7F800000#32)) i = 0#1 := by
    show Ideal.cmp .olt (max (X i) (-(X i))) (Ideal.ofBits .f32 0x7F800000#32) = 0#1
    rw [ofBits_inf]
    unfold Ideal.cmp
    simp [hn]
  rw [h0] at e
  exact absurd e (by decide)

/-- The precondition holding of three arrays: every entry of each is a real number. -/
theorem finite_of_pre [Facts] (Q K V : FVec Ideal S4096x1024 .f32) (h : fn (F := Ideal) Q K V = fun _ => 1#1) :
    (∀ i, ∃ r : ℝ, Q i = (r : EReal)) ∧ (∀ i, ∃ r : ℝ, K i = (r : EReal)) ∧ (∀ i, ∃ r : ℝ, V i = (r : EReal)) := by
  have h0 := congrFun h ValueIdx.ix0
  dsimp only [fn] at h0
  obtain ⟨h01, hV⟩ := IntOp.andi_eq_one.1 h0
  obtain ⟨hQ, hK⟩ := IntOp.andi_eq_one.1 h01
  exact ⟨fun i => real_of_cmp Q i (Host.reduce_andi_all _ _ _ _ _ hQ i),
    fun i => real_of_cmp K i (Host.reduce_andi_all _ _ _ _ _ hK i),
    fun i => real_of_cmp V i (Host.reduce_andi_all _ _ _ _ _ hV i)⟩

end Cert.Attn.Finite

end
-- ==== Proof.lean ====
/-
  Attention with a softmax down each column, over the extended reals. For queries Q, keys K, values V (each
  4096 × 1024) write s(k, q) = ∑ d, K[k,d] · Q[q,d]. Both programs return
      weights[k, q] = exp (s(k,q) − max over k' of s(k',q)) / ∑ over k' of exp (s(k',q) − max …)
      out[q, e]     = ∑ over k of weights[k, q] · V[k, e].
  The kernel works on 256 queries at a time and takes the 4096 keys in eight runs of 512, three times: the scores
  with a running column maximum; the exponentials with a running column sum; and the exponentials times the
  reciprocal 1 / sum, accumulated against the values. The reference takes each maximum and sum in one sweep and
  divides by the sum. They agree because max and + on the extended reals are commutative and associative, at the
  infinities too, so the eight runs regroup into one sweep; because a change of float format is the identity here;
  and because e · (1 / l) = e / l whenever l ≠ 0. That last step is where the precondition is used: with every
  input a real number, every score is real, every column maximum is real, every exponential is a positive real, and
  every column sum is a positive real. (With an infinite input a column sum can be 0, and there 0 · (1/0) = 0 but
  0 / 0 is not: the two programs would differ.)
  The frames are the generated ones; the kernel's idealization rewrote nothing.
-/
import proofs.«168421_j22316650070307_2_alg».proof.Defs
import proofs.«168421_j22316650070307_2_alg».proof.Proof.Gen.Kernel
import proofs.«168421_j22316650070307_2_alg».proof.Proof.Gen.Kernel.Skeleton
import proofs.«168421_j22316650070307_2_alg».proof.Proof.Gen.Kernel.Launch
import proofs.«168421_j22316650070307_2_alg».proof.Proof.Gen.Kernel.Points
import proofs.«168421_j22316650070307_2_alg».proof.Proof.Gen.Kernel.Frame
import proofs.«168421_j22316650070307_2_alg».proof.Proof.Gen.KernelIdeal
import proofs.«168421_j22316650070307_2_alg».proof.Proof.Gen.KernelIdeal.Skeleton
import proofs.«168421_j22316650070307_2_alg».proof.Proof.Gen.KernelIdeal.Launch
import proofs.«168421_j22316650070307_2_alg».proof.Proof.Gen.KernelIdeal.Points
import proofs.«168421_j22316650070307_2_alg».proof.Proof.Gen.KernelIdeal.Frame
import proofs.«168421_j22316650070307_2_alg».proof.Proof.Gen.ReferenceIdeal
import proofs.«168421_j22316650070307_2_alg».proof.Proof.Gen.Pre_finite_inputs
import proofs.«168421_j22316650070307_2_alg».proof.Proof.Gen.KernelIdeal.Value
import proofs.«168421_j22316650070307_2_alg».proof.Proof.Gen.ReferenceIdeal.Run
import proofs.«168421_j22316650070307_2_alg».proof.Proof.Gen.ReferenceIdeal.Read
import proofs.«168421_j22316650070307_2_alg».proof.Proof.Spec
import proofs.«168421_j22316650070307_2_alg».proof.Proof.Chunks
import proofs.«168421_j22316650070307_2_alg».proof.Proof.Steps
import proofs.«168421_j22316650070307_2_alg».proof.Proof.Words
import proofs.«168421_j22316650070307_2_alg».proof.Proof.Values
import proofs.«168421_j22316650070307_2_alg».proof.Proof.Blocks
import proofs.«168421_j22316650070307_2_alg».proof.Proof.Final
import proofs.«168421_j22316650070307_2_alg».proof.Proof.RefValue
import proofs.«168421_j22316650070307_2_alg».proof.Proof.Finite
import Idealize.ShloMosaic.Adequacy
import Idealize.ShloMosaic.Init

noncomputable section

namespace Cert.Proof

open Idealize.ShloMosaic Idealize.ShloMosaic.TcCoe Idealize.SL.Sem Cert.Attn

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- From memories agreeing on the three arguments, both programs end with the weighted values and the attention
    weights of the specification: the kernel by its run under real inputs, the reference by its run read stage by
    stage. -/
theorem algebraic : Cert.algebraic_KernelIdeal_ReferenceIdeal := by
  intro m ρ m' ρ' hpre hagree
  have hreal : ∀ c : Dev Cert.KernelIdeal.nD,
      (∀ i, ∃ r : ℝ, (m ((c.tc : Thread Cert.KernelIdeal.nD Cert.KernelIdeal.τ).loc Cert.KernelIdeal.main_arg0)) i = (r : EReal)) ∧ (∀ i, ∃ r : ℝ, (m ((c.tc : Thread Cert.KernelIdeal.nD Cert.KernelIdeal.τ).loc Cert.KernelIdeal.main_arg1)) i = (r : EReal)) := fun c => by
    obtain ⟨hQ, hK, -⟩ := Cert.Attn.Finite.finite_of_pre _ _ _ (hpre c)
    exact ⟨hQ, hK⟩
  refine ⟨_, _, Cert.KernelIdeal.Final.run_spec m ρ hreal, ?_⟩
  refine (θ_run Cert.ReferenceIdeal.defs _ _).mono (fun r h c => ?_) (Cert.ReferenceIdeal.Value.run (F := Ideal) m' ρ')
  obtain ⟨a0, a1, a2⟩ := hagree c
  refine ⟨?_, ?_, (h c).2.2⟩
  · rw [(h c).1, Cert.ReferenceIdeal.Read.val_main_v12_eq, Cert.ReferenceIdeal.RefValue.v12_eq, a0, a1, a2]
  · rw [(h c).2.1, Cert.ReferenceIdeal.Read.val_main_v11_eq, Cert.ReferenceIdeal.RefValue.v11_eq, a0, a1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
